-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x1024 : Shape := ⟨2, ![64, 1024]⟩
abbrev S64x2048x1 : Shape := ⟨3, ![64, 2048, 1]⟩
abbrev S512x1024 : Shape := ⟨2, ![512, 1024]⟩
abbrev S512x512 : Shape := ⟨2, ![512, 512]⟩
abbrev S1x512 : Shape := ⟨2, ![1, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64x2048x1 : S_.BroadcastsInDim S64x2048x1 (![] : Fin 0 → Fin S64x2048x1.rank)
  reducesTo_S64x2048x1_S_d0_1_2 : S64x2048x1.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S512x512 .f32) (main_arg5 : FVec F S1x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S64x2048x512 .f32) (main_arg1 : FVec F S64x1024 .f32) (main_arg2 : FVec F S64x2048x1 .f32) (main_arg3 : FVec F S512x1024 .f32) (main_arg4 : FVec F S512x512 .f32) (main_arg5 : FVec F S1x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x2048x1 .f32 := Host.absf main_arg2
  let main_cst_2 : FVec F S_ .f32 := constant S_ .f32 0x7F800000#32
  let main_v10 : FVec F S64x2048x1 .f32 := broadcastInDim S64x2048x1 ![] bcast_S_S64x2048x1 main_cst_2
  let main_v11 : IVec S64x2048x1 1 := cmpf .olt main_v9 main_v10
  let main_c_3 : IVec S_ 1 := constantI S_ 1 1#1
  let main_v12 : IVec S_ 1 := (fun x v => Host.reduce IntOp.andi x v reducesTo_S64x2048x1_S_d0_1_2 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_v13 main_v16
-- ==== Kernel.lean ====
abbrev S64x2048x512 : Shape := ⟨3, ![64, 2048, 512]⟩
abbrev S64x1024 : Shape := ⟨2, ![64, 1024]⟩
abbrev S64x2048x1 : Shape := ⟨3, ![64, 2048, 1]⟩
abbrev S512x1024 : Shape := ⟨2, ![512, 1024]⟩
abbrev S512x512 : Shape := ⟨2, ![512, 512]⟩
abbrev S1x512 : Shape := ⟨2, ![1, 512]⟩
abbrev S64x512 : Shape := ⟨2, ![64, 512]⟩
abbrev S64x1x512 : Shape := ⟨3, ![64, 1, 512]⟩
abbrev S1x1x512 : Shape := ⟨3, ![1, 1, 512]⟩
abbrev S1x1024x512 : Shape := ⟨3, ![1, 1024, 512]⟩
abbrev S1x1024x1 : Shape := ⟨3, ![1, 1024, 1]⟩
abbrev S1x1 : Shape := ⟨2, ![1, 1]⟩
abbrev S1024x512 : Shape := ⟨2, ![1024, 512]⟩
abbrev S1024x1 : Shape := ⟨2, ![1024, 1]⟩
abbrev S1024 : Shape := ⟨1, ![1024]⟩
abbrev S1 : Shape := ⟨1, ![1]⟩
abbrev S512 : Shape := ⟨1, ![512]⟩

abbrev nBuf : Space → Nat
  | .hbm => 12
  | .vmem => 13
  | .smem => 0
  | _ => 0

abbrev bufTy : (tb : Table) → Fin (tcTables nBuf tb) → BufTy
  | .hbm, ⟨0, _⟩ => ⟨S64x2048x512, .f32⟩
  | .hbm, ⟨1, _⟩ => ⟨S64x1024, .f32⟩
  | .hbm, ⟨2, _⟩ => ⟨S64x2048x1, .f32⟩
  | .hbm, ⟨3, _⟩ => ⟨S512x1024, .f32⟩
  | .hbm, ⟨4, _⟩ => ⟨S512x512, .f32⟩
  | .hbm, ⟨5, _⟩ => ⟨S1x512, .f32⟩
  | .hbm, ⟨6, _⟩ => ⟨S64x512, .f32⟩
  | .hbm, ⟨7, _⟩ => ⟨S64x1x512, .f32⟩
  | .hbm, ⟨8, _⟩ => ⟨S512x512, .f32⟩
  | .hbm, ⟨9, _⟩ => ⟨S512x512, .bf16⟩
  | .hbm, ⟨10, _⟩ => ⟨S64x1x512, .f32⟩
  | .hbm, ⟨11, _⟩ => ⟨S64x512, .f32⟩
  | .local _ .vmem, ⟨0, _⟩ => ⟨S1x1x512, .f32⟩
  | .local _ .vmem, ⟨1, _⟩ => ⟨S1x1x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1, .f32⟩
  | .local _ .vmem, ⟨5, _⟩ => ⟨S1x1024x1, .f32⟩
  | .local _ .vmem, ⟨6, _⟩ => ⟨S512x512, .bf16⟩
  | .local _ .vmem, ⟨7, _⟩ => ⟨S1x512, .f32⟩
  | .local _ .vmem, ⟨8, _⟩ => ⟨S1x1x512, .f32⟩
  | .local _ .vmem, ⟨9, _⟩ => ⟨S1x1x512, .f32⟩
  | .local _ .vmem, ⟨10, _⟩ => ⟨S1x1, .f32⟩
  | .local _ .vmem, ⟨11, _⟩ => ⟨S1x1, .f32⟩
  | .local _ .vmem, ⟨12, _⟩ => ⟨S1x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v54 : BitVec 1 := Scalar.cmpi .eq arg1 c1_i32
  let v55 : BitVec 32 := Scalar.extui v54
  let c0_i32_29 : BitVec 32 := 0#32
  let v56 : BitVec 1 := Scalar.cmpi .ne v55 c0_i32_29
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64x512_S64x1x512 : S64x512.ShapeCasts S64x1x512
  transposes_S512x512_S512x512_1_0 : S512x512.Transposes [1, 0] S512x512
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1024x512 : S1x512.Broadcasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  broadcasts_S1x1_S1024x1 : S1x1.Broadcasts S1024x1
  broadcasts_S1024x1_S1024x512 : S1024x1.Broadcasts S1024x512
  reduces_S1024x512_S512 : S1024x512.Reduces [0] S512
  shapeCasts_S512_S1x512 : S512.ShapeCasts S1x512
  broadcasts_S1x1_S1x512 : S1x1.Broadcasts S1x512
  shapeCasts_S1x512_S1x1x512 : S1x512.ShapeCasts S1x1x512
  shapeCasts_S64x1x512_S64x512 : S64x1x512.ShapeCasts S64x512
  dot_S64x1024_S512x1024_S64x512_1_1_0_0_n_n_wf : DotDims.WF S64x1024 S512x1024 S64x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S64x1x512.size a
  hwx0_0 : ∀ i : grid0.Coords, EltTy.bits .f32 = 32 ∨ (Rect.block (s := S64x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x2048x512.size a
  hwx0_1 : ∀ i : grid0.Coords, EltTy.bits .f32 = 32 ∨ (Rect.block (s := S64x2048x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S64x2048x1.size a
  hwx0_2 : ∀ i : grid0.Coords, EltTy.bits .f32 = 32 ∨ (Rect.block (s := S64x2048x1) S1x1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S64x1x512.size a
  hwx0_5 : ∀ i : grid0.Coords, EltTy.bits .f32 = 32 ∨ (Rect.block (s := S64x1x512) S1x1x512.size (cc0_transform_5 i) (hinb0_5 i)).WholeWords (EltTy.packing .f32)

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v1) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x2048x512 : Shape := ⟨3, ![64, 2048, 512]⟩
abbrev S64x1024 : Shape := ⟨2, ![64, 1024]⟩
abbrev S64x2048x1 : Shape := ⟨3, ![64, 2048, 1]⟩
abbrev S512x1024 : Shape := ⟨2, ![512, 1024]⟩
abbrev S512x512 : Shape := ⟨2, ![512, 512]⟩
abbrev S1x512 : Shape := ⟨2, ![1, 512]⟩
abbrev S64x512 : Shape := ⟨2, ![64, 512]⟩
abbrev S64x1x512 : Shape := ⟨3, ![64, 1, 512]⟩
abbrev S_ : Shape := ⟨0, ![]⟩
abbrev S64x1 : Shape := ⟨2, ![64, 1]⟩
abbrev S64x1x1 : Shape := ⟨3, ![64, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x1024, .f32⟩
  | .hbm, ⟨2, _⟩ => ⟨S64x2048x1, .f32⟩
  | .hbm, ⟨3, _⟩ => ⟨S512x1024, .f32⟩
  | .hbm, ⟨4, _⟩ => ⟨S512x512, .f32⟩
  | .hbm, ⟨5, _⟩ => ⟨S1x512, .f32⟩
  | .hbm, ⟨6, _⟩ => ⟨S64x512, .f32⟩
  | .hbm, ⟨7, _⟩ => ⟨S64x2048x512, .f32⟩
  | .hbm, ⟨8, _⟩ => ⟨S64x1x512, .f32⟩
  | .hbm, ⟨9, _⟩ => ⟨S64x2048x512, .f32⟩
  | .hbm, ⟨10, _⟩ => ⟨S64x2048x512, .f32⟩
  | .hbm, ⟨11, _⟩ => ⟨S64x2048x512, .f32⟩
  | .hbm, ⟨12, _⟩ => ⟨S64x2048x1, .f32⟩
  | .hbm, ⟨13, _⟩ => ⟨S_, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x1x1, .f32⟩
  | .hbm, ⟨19, _⟩ => ⟨S64x2048x1, .f32⟩
  | .hbm, ⟨20, _⟩ => ⟨S64x2048x1, .f32⟩
  | .hbm, ⟨21, _⟩ => ⟨S64x2048x1, .f32⟩
  | .hbm, ⟨22, _⟩ => ⟨S_, .f32⟩
  | .hbm, ⟨23, _⟩ => ⟨S64x1, .f32⟩
  | .hbm, ⟨24, _⟩ => ⟨S64x1x1, .f32⟩
  | .hbm, ⟨25, _⟩ => ⟨S64x2048x1, .f32⟩
  | .hbm, ⟨26, _⟩ => ⟨S64x2048x1, .f32⟩
  | .hbm, ⟨27, _⟩ => ⟨S64x2048x512, .f32⟩
  | .hbm, ⟨28, _⟩ => ⟨S64x2048x512, .f32⟩
  | .hbm, ⟨29, _⟩ => ⟨S64x2048x512, .f32⟩
  | .hbm, ⟨30, _⟩ => ⟨S64x2048x512, .f32⟩
  | .hbm, ⟨31, _⟩ => ⟨S_, .f32⟩
  | .hbm, ⟨32, _⟩ => ⟨S64x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x1024_S512x1024_S64x512_1_1_0_0_n_n_wf : DotDims.WF S64x1024 S512x1024 S64x512 [1] [1] [0] [0] [] []
  dot_S64x2048x512_S512x512_S64x2048x512_2_1_01_0_n_n_wf : DotDims.WF S64x2048x512 S512x512 S64x2048x512 [2] [1] [0, 1] [0] [] []
  dot_S64x2048x512_S1x512_S64x2048x1_2_1_01_0_n_n_wf : DotDims.WF S64x2048x512 S1x512 S64x2048x1 [2] [1] [0, 1] [0] [] []

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf
def dot_S64x2048x512_S512x512_S64x2048x512_2_1_01_0_n_n : DotDims S64x2048x512 S512x512 S64x2048x512 where
  lhsContracting := [2]
  rhsContracting := [1]
  lhsNonContracting := [0, 1]
  rhsNonContracting := [0]
  lhsBatch := []
  rhsBatch := []
  wf := dot_S64x2048x512_S512x512_S64x2048x512_2_1_01_0_n_n_wf
def dot_S64x2048x512_S1x512_S64x2048x1_2_1_01_0_n_n : DotDims S64x2048x512 S1x512 S64x2048x1 where
  lhsContracting := [2]
  rhsContracting := [1]
  lhsNonContracting := [0, 1]
  rhsNonContracting := [0]
  lhsBatch := []
  rhsBatch := []
  wf := dot_S64x2048x512_S1x512_S64x2048x1_2_1_01_0_n_n_wf

class Facts : Prop extends Facts₀ where

variable [Facts]
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's arithmetic, read entry by entry on the extended reals.

  One grid point works on one tile of 1024 set elements of one batch row. From the query row q[h], the tile of
  confounders X[n,c], the transposed key weights W[c,h] and the score weights wt[h] it forms the tile's scores
      s n = ∑ h, tanh (q h + ∑ c, X[n,c] · W[c,h]) · wt h,
  takes the new running maximum m' = max m (max over the tile of s), and updates the running denominator and the running
  weighted sum with the rescaling factor e^{m − m'}:
      l' = e^{m − m'} · l + ∑ n, e^{s n − m'},      acc'[c] = e^{m − m'} · acc[c] + ∑ n, e^{s n − m'} · (X[n,c] · p n).
  The last tile of a row divides acc' by l'. Each lemma below reads one of these intermediate arrays at an index written by
  its coordinates; the layout steps in between (a unit axis added or dropped, a row or a column repeated) only rename the
  index.
-/
import proofs.«151651_j81982335746424_2_alg».proof.Proof.Gen.KernelIdeal.Skeleton
import proofs.«151651_j81982335746424_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Idealize.ShloMosaic.TcCoe
open Cert.KernelIdeal Cert.KernelIdeal.Gen

/-! ## Reductions over one axis, at an index -/

/-- The word of −∞ denotes the bottom of the extended reals. -/
theorem ofBits_neg_inf : Ideal.ofBits .f32 0xFF800000#32 = ⊥ := by simp [Ideal.ofBits, Ideal.ieee]

/-- A sum along the second axis of a [1024, 512] array, at row n. -/
theorem sum_axis1 (src : FVec Ideal S1024x512 .f32) (h : S1024x512.Reduces [1] S1024) (hφ : FKind.Formats .f32)
    (hacc : (0x00000000#32 : BitVec 32) = FKind.add.neutral .f32 hφ) (n : Fin 1024) :
    multiReduction .add [1] S1024 src 0x00000000#32 h hφ hacc (ix1 n) = ∑ k : Fin 512, src (ix2 n k) :=
  (Ideal.multiReduction_add_single src _ h hφ hacc (ix1 n)).trans
    (Finset.sum_congr rfl fun k _ => congrArg src (funext fun a => Fin.ext (by
      match a with
      | ⟨0, _⟩ => rfl
      | ⟨1, _⟩ => rfl)))

/-- A sum along the first axis of a [1024, 512] array, at column c. -/
theorem sum_axis0 (src : FVec Ideal S1024x512 .f32) (h : S1024x512.Reduces [0] S512) (hφ : FKind.Formats .f32)
    (hacc : (0x00000000#32 : BitVec 32) = FKind.add.neutral .f32 hφ) (c : Fin 512) :
    multiReduction .add [0] S512 src 0x00000000#32 h hφ hacc (ix1 c) = ∑ k : Fin 1024, src (ix2 k c) :=
  (Ideal.multiReduction_add_single src _ h hφ hacc (ix1 c)).trans
    (Finset.sum_congr rfl fun k _ => congrArg src (funext fun a => Fin.ext (by
      match a with
      | ⟨0, _⟩ => rfl
      | ⟨1, _⟩ => rfl)))

/-- A sum down a column [1024, 1]. -/
theorem sum_col (src : FVec Ideal S1024x1 .f32) (h : S1024x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ k : Fin 1024, src (ix2 k u) :=
  (Ideal.multiReduction_add_single src _ h hφ hacc (ix1 u)).trans
    (Finset.sum_congr rfl fun k _ => congrArg src (funext fun a => Fin.ext (by
      match a with
      | ⟨0, _⟩ => rfl
      | ⟨1, _⟩ => rfl)))

/-- The maximum down a column [1024, 1], started from −∞. -/
theorem max_col (src : FVec Ideal S1024x1 .f32) (h : S1024x1.Reduces [0] S1) (hφ : FKind.Formats .f32)
    (hacc : (0xFF800000#32 : BitVec 32) = FKind.maximumf.neutral .f32 hφ) (u : Fin 1) :
    multiReduction .maximumf [0] S1 src 0xFF800000#32 h hφ hacc (ix1 u)
      = (Finset.univ : Finset (Fin 1024)).fold max ⊥ (fun k => src (ix2 k u)) := by
  refine (Ideal.multiReduction_maximumf_single src _ h hφ hacc (ix1 u)).trans ?_
  refine congrArg₂ (fun b f => (Finset.univ : Finset (Fin 1024)).fold max b f) ofBits_neg_inf ?_
  exact funext fun k => congrArg src (funext fun a => Fin.ext (by
    match a with
    | ⟨0, _⟩ => rfl
    | ⟨1, _⟩ => rfl))

/-! ## The matrix product of a tile with the transposed key weights -/

theorem mm_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem mm_lhs1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem mm_rhs0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem mm_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Entry (n, h) of the product is the sum over the contracted coordinate c of A[n,c] · B[c,h]. -/
theorem matmul_tile (A : FVec Ideal S1024x512 .bf16) (B : FVec Ideal S512x512 .bf16) (n : Fin 1024) (h : Fin 512) :
    matmul dot_S1024x512_S512x512_S1024x512_1_0_0_1_n_n none A B (constant S1024x512 .f32 0x00000000#32) (ix2 n h)
      = ∑ c : Fin 512, A (ix2 n c) * B (ix2 c h) := by
  refine (Ideal.matmul_constant_zero_apply dot_S1024x512_S512x512_S1024x512_1_0_0_1_n_n none A B (ix2 n h)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 n h) ((contrEquiv1 dot_S1024x512_S512x512_S1024x512_1_0_0_1_n_n 512 rfl rfl).symm k) = ix2 n k :=
    funext fun a => Fin.ext (by
      match a with
      | ⟨0, _⟩ => exact mm_lhs0 _ _
      | ⟨1, _⟩ => exact (mm_lhs1 _ _).trans hk)
  have er : dot_S1024x512_S512x512_S1024x512_1_0_0_1_n_n.rhsIdx (ix2 n h) ((contrEquiv1 dot_S1024x512_S512x512_S1024x512_1_0_0_1_n_n 512 rfl rfl).symm k) = ix2 k h :=
    funext fun a => Fin.ext (by
      match a with
      | ⟨0, _⟩ => exact (mm_rhs0 _ _).trans hk
      | ⟨1, _⟩ => exact mm_rhs1 _ _)
  rw [el, er]

/-! ## The payloads -/

/-- The scores of one tile: s n = ∑ h, tanh (q h + ∑ c, X[n,c] · W[c,h]) · wt h. -/
def tileScore (q : FVec Ideal S1x1x512 .f32) (X : FVec Ideal S1x1024x512 .f32) (W : FVec Ideal S512x512 .bf16)
    (wt : FVec Ideal S1x512 .f32) (n : Fin 1024) : EReal :=
  ∑ h : Fin 512, Ideal.tanh (q (ix3 (0 : Fin 1) (0 : Fin 1) h) + ∑ c : Fin 512, X (ix3 (0 : Fin 1) n c) * W (ix2 c h))
    * wt (ix2 (0 : Fin 1) h)

theorem pay8_apply (X : FVec Ideal S1x1024x512 .f32) (n : Fin 1024) (c : Fin 512) :
    k0_pay8 (F := Ideal) X (ix2 n c) = X (ix3 (0 : Fin 1) n c) := by
  unfold k0_pay8
  exact shapeCast_1ab_ab_apply X _ n c

theorem pay9_apply (p : FVec Ideal S1x1024x1 .f32) (n : Fin 1024) (u : Fin 1) :
    k0_pay9 (F := Ideal) p (ix2 n u) = p (ix3 (0 : Fin 1) n u) := by
  unfold k0_pay9
  exact shapeCast_1ab_ab_apply p _ n u

theorem pay10_apply (q : FVec Ideal S1x1x512 .f32) (X : FVec Ideal S1x1024x512 .f32) (W : FVec Ideal S512x512 .bf16)
    (wt : FVec Ideal S1x512 .f32) (n : Fin 1024) (u : Fin 1) :
    k0_pay10 (F := Ideal) q X W wt (ix2 n u) = tileScore q X W wt n := by
  unfold k0_pay10 k0_pay8
  try dsimp only
  refine (shapeCast_a_a1_apply _ _ n u).trans ?_
  refine (sum_axis1 _ _ _ _ n).trans ?_
  refine Finset.sum_congr rfl fun h _ => ?_
  refine congrArg₂ (· * ·) (congrArg Ideal.tanh (congrArg₂ (· + ·) ?_ ?_)) ?_
  · exact (broadcastTo_1b_ab_apply _ _ n h).trans (shapeCast_1ab_ab_apply q _ (0 : Fin 1) h)
  · refine (matmul_tile _ _ n h).trans (Finset.sum_congr rfl fun c _ => congrArg₂ (· * ·) ?_ ?_)
    · exact shapeCast_1ab_ab_apply X _ n c
    · exact congrFun (shapeCast_self W _) (ix2 c h)
  · exact broadcastTo_1b_ab_apply wt _ n h

/-- The new running maximum: the old one against the tile's largest score. -/
theorem pay11_apply (q : FVec Ideal S1x1x512 .f32) (X : FVec Ideal S1x1024x512 .f32) (W : FVec Ideal S512x512 .bf16)
    (wt : FVec Ideal S1x512 .f32) (m : FVec Ideal S1x1 .f32) (u v : Fin 1) :
    k0_pay11 (F := Ideal) q X W wt m (ix2 u v)
      = max (m (ix2 u v)) ((Finset.univ : Finset (Fin 1024)).fold max ⊥ (tileScore q X W wt)) := by
  unfold k0_pay11
  try dsimp only
  refine congrArg₂ max rfl ?_
  refine (shapeCast_a_a1_apply _ _ u v).trans ?_
  refine (max_col _ _ _ _ u).trans ?_
  exact congrArg (fun f => (Finset.univ : Finset (Fin 1024)).fold max ⊥ f) (funext fun k => pay10_apply q X W wt k u)

/-- The rescaling factor e^{m − m'}. -/
theorem pay12_apply (q : FVec Ideal S1x1x512 .f32) (X : FVec Ideal S1x1024x512 .f32) (W : FVec Ideal S512x512 .bf16)
    (wt : FVec Ideal S1x512 .f32) (m : FVec Ideal S1x1 .f32) (u v : Fin 1) :
    k0_pay12 (F := Ideal) q X W wt m (ix2 u v)
      = Ideal.exp (m (ix2 u v) - k0_pay11 (F := Ideal) q X W wt m (ix2 u v)) := by
  unfold k0_pay12
  rfl

/-- The tile's weights e^{s n − m'}. -/
theorem pay13_apply (q : FVec Ideal S1x1x512 .f32) (X : FVec Ideal S1x1024x512 .f32) (W : FVec Ideal S512x512 .bf16)
    (wt : FVec Ideal S1x512 .f32) (m : FVec Ideal S1x1 .f32) (n : Fin 1024) (u : Fin 1) :
    k0_pay13 (F := Ideal) q X W wt m (ix2 n u)
      = Ideal.exp (tileScore q X W wt n - k0_pay11 (F := Ideal) q X W wt m (ix2 (0 : Fin 1) u)) := by
  unfold k0_pay13
  try dsimp only
  refine congrArg Ideal.exp (congrArg₂ (· - ·) (pay10_apply q X W wt n u) ?_)
  exact broadcastTo_1b_ab_apply _ _ n u

theorem pay14_apply (q : FVec Ideal S1x1x512 .f32) (X : FVec Ideal S1x1024x512 .f32) (W : FVec Ideal S512x512 .bf16)
    (wt : FVec Ideal S1x512 .f32) (m l : FVec Ideal S1x1 .f32) (u v : Fin 1) :
    k0_pay14 (F := Ideal) q X W wt m l (ix2 u v) = k0_pay12 (F := Ideal) q X W wt m (ix2 u v) * l (ix2 u v) := by
  unfold k0_pay14
  rfl

/-- The tile's contribution to the denominator: ∑ n, e^{s n − m'}. -/
theorem pay15_apply (q : FVec Ideal S1x1x512 .f32) (X : FVec Ideal S1x1024x512 .f32) (W : FVec Ideal S512x512 .bf16)
    (wt : FVec Ideal S1x512 .f32) (m : FVec Ideal S1x1 .f32) (u v : Fin 1) :
    k0_pay15 (F := Ideal) q X W wt m (ix2 u v) = ∑ n : Fin 1024, k0_pay13 (F := Ideal) q X W wt m (ix2 n u) := by
  unfold k0_pay15
  try dsimp only
  refine (shapeCast_a_a1_apply _ _ u v).trans ?_
  exact sum_col _ _ _ _ u

theorem pay1_apply (a b : FVec Ideal S1x1 .f32) (j : S1x1.Idx) : k0_pay1 (F := Ideal) a b j = a j + b j := by
  unfold k0_pay1
  try dsimp only
  exact congrFun (shapeCast_self _ _) j

/-- The updated weighted sum: e^{m − m'} · acc[c] + ∑ n, e^{s n − m'} · (X[n,c] · p n). -/
theorem pay2_apply (X : FVec Ideal S1024x512 .f32) (p : FVec Ideal S1024x1 .f32) (al : FVec Ideal S1x1 .f32)
    (w : FVec Ideal S1024x1 .f32) (acc : FVec Ideal S1x512 .f32) (u : Fin 1) (c : Fin 512) :
    k0_pay2 (F := Ideal) X p al w acc (ix2 u c)
      = al (ix2 u (0 : Fin 1)) * acc (ix2 u c) + ∑ n : Fin 1024, w (ix2 n (0 : Fin 1)) * (X (ix2 n c) * p (ix2 n (0 : Fin 1))) := by
  unfold k0_pay2
  try dsimp only
  refine (congrFun (shapeCast_self _ _) (ix2 u c)).trans ?_
  refine congrArg₂ (· + ·) (congrArg₂ (· * ·) ?_ rfl) ?_
  · exact broadcastTo_a1_ab_apply al _ u c
  · refine (shapeCast_a_1a_apply _ _ u c).trans ?_
    refine (sum_axis0 _ _ _ _ c).trans ?_
    refine Finset.sum_congr rfl fun n _ => congrArg₂ (· * ·) ?_ (congrArg₂ (· * ·) rfl ?_)
    · exact broadcastTo_a1_ab_apply w _ n c
    · exact broadcastTo_a1_ab_apply p _ n c

theorem pay3_eq (m : FVec Ideal S1x1 .f32) : k0_pay3 (F := Ideal) m = m := by
  unfold k0_pay3
  exact shapeCast_self _ _

/-- The final division acc[c] / l. -/
theorem pay4_apply (acc : FVec Ideal S1x512 .f32) (l : FVec Ideal S1x1 .f32) (u v : Fin 1) (c : Fin 512) :
    k0_pay4 (F := Ideal) acc l (ix3 u v c) = Ideal.div (acc (ix2 v c)) (l (ix2 v (0 : Fin 1))) := by
  unfold k0_pay4
  try dsimp only
  refine (shapeCast_ab_1ab_apply _ _ u v c).trans ?_
  exact congrArg (Ideal.div (acc (ix2 v c))) (broadcastTo_a1_ab_apply l _ v c)

theorem pay5_apply (j : S1x1.Idx) : k0_pay5 (F := Ideal) j = Ideal.ofBits .f32 0xF149F2CA#32 := by
  unfold k0_pay5
  try dsimp only
  exact congrFun (shapeCast_self _ _) j

theorem pay6_apply (j : S1x1.Idx) : k0_pay6 (F := Ideal) j = 0 := by
  unfold k0_pay6
  try dsimp only
  exact (congrFun (shapeCast_self _ _) j).trans Ideal.ofBits_zero_f32

theorem pay7_apply (j : S1x512.Idx) : k0_pay7 (F := Ideal) j = 0 := by
  unfold k0_pay7
  try dsimp only
  exact (congrFun (shapeCast_self _ _) j).trans Ideal.ofBits_zero_f32

end Cert.KernelIdeal.Payload

end
-- ==== Proof.Spec.lean ====
/-
  The function both programs compute, index by index, on the extended reals.

  For a batch row b the score of set element n is
      score b n = ∑ h, tanh (query b h + ∑ c, conf[b,n,c] · Wk[h,c]) · Wt[0,h],   query b h = ∑ f, fuse[b,f] · Wq[h,f],
  and the result is the softmax-weighted sum over the set axis
      pooled b c = (∑ n, e^{score b n} · (conf[b,n,c] · prob[b,n,0])) / (∑ n, e^{score b n}).
  A softmax evaluated with any finite shift m of the exponents (e^{score − m} in numerator and denominator) is this same
  quotient; both programs shift, each by its own maximum, so the shift-free form is the common specification.

  Also here: the predicate "this extended real is a real number", closed under the operations the programs use. All the
  algebra that joins the two programs (distributing a factor over a sum, cancelling a common positive factor) holds on
  real numbers and fails at the infinities, so the proof carries this predicate from the finite inputs to every
  intermediate value.
-/
import Idealize.ShloMosaic.PureOps.Ideal
import Idealize.ShloMosaic.Lib.ValueIdx

noncomputable section

namespace Cert.Spec

open Idealize.ShloMosaic Idealize.ShloMosaic.ValueIdx

/-- An extended real that is a real number (neither infinity). -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.tanh {x : EReal} (hx : IsReal x) : IsReal (Ideal.tanh x) := by
  obtain ⟨a, rfl⟩ := hx; exact ⟨Real.tanh a, rfl⟩

theorem IsReal.exp {x : EReal} (hx : IsReal x) : IsReal (Ideal.exp x) := by
  obtain ⟨a, rfl⟩ := hx; exact ⟨Real.exp a, rfl⟩

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h _ (Finset.mem_insert_self _ _)).add (ih fun i hi => h i (Finset.mem_insert_of_mem hi))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

theorem isReal_of_ne {x : EReal} (hb : x ≠ ⊥) (ht : x ≠ ⊤) : IsReal x := by
  induction x using EReal.rec with
  | bot => exact absurd rfl hb
  | top => exact absurd rfl ht
  | coe r => exact ⟨r, rfl⟩

/-- query b h = ∑ f, fuse[b,f] · Wq[h,f]. -/
def query (fuse : (⟨2, ![64, 1024]⟩ : Shape).Idx → EReal) (wq : (⟨2, ![512, 1024]⟩ : Shape).Idx → EReal)
    (b : Fin 64) (h : Fin 512) : EReal :=
  ∑ f : Fin 1024, fuse (ix2 b f) * wq (ix2 h f)

/-- score b n = ∑ h, tanh (query b h + ∑ c, conf[b,n,c] · Wk[h,c]) · Wt[0,h]. -/
def score (conf : (⟨3, ![64, 2048, 512]⟩ : Shape).Idx → EReal) (fuse : (⟨2, ![64, 1024]⟩ : Shape).Idx → EReal)
    (wq : (⟨2, ![512, 1024]⟩ : Shape).Idx → EReal) (wk : (⟨2, ![512, 512]⟩ : Shape).Idx → EReal)
    (wt : (⟨2, ![1, 512]⟩ : Shape).Idx → EReal) (b : Fin 64) (n : Fin 2048) : EReal :=
  ∑ h : Fin 512, Ideal.tanh (query fuse wq b h + ∑ c : Fin 512, conf (ix3 b n c) * wk (ix2 h c)) * wt (ix2 (0 : Fin 1) h)

/-- pooled b c = (∑ n, e^{score b n} · (conf[b,n,c] · prob[b,n,0])) / (∑ n, e^{score b n}). -/
def pooled (conf : (⟨3, ![64, 2048, 512]⟩ : Shape).Idx → EReal) (fuse : (⟨2, ![64, 1024]⟩ : Shape).Idx → EReal)
    (prob : (⟨3, ![64, 2048, 1]⟩ : Shape).Idx → EReal)
    (wq : (⟨2, ![512, 1024]⟩ : Shape).Idx → EReal) (wk : (⟨2, ![512, 512]⟩ : Shape).Idx → EReal)
    (wt : (⟨2, ![1, 512]⟩ : Shape).Idx → EReal) (b : Fin 64) (c : Fin 512) : EReal :=
  Ideal.div (∑ n : Fin 2048, Ideal.exp (score conf fuse wq wk wt b n) * (conf (ix3 b n c) * prob (ix3 b n (0 : Fin 1))))
    (∑ n : Fin 2048, Ideal.exp (score conf fuse wq wk wt b n))

theorem query_isReal {fuse : (⟨2, ![64, 1024]⟩ : Shape).Idx → EReal} {wq : (⟨2, ![512, 1024]⟩ : Shape).Idx → EReal}
    (hf : ∀ i, IsReal (fuse i)) (hq : ∀ i, IsReal (wq i)) (b : Fin 64) (h : Fin 512) : IsReal (query fuse wq b h) :=
  IsReal.sum _ _ fun _ _ => (hf _).mul (hq _)

theorem score_isReal {conf : (⟨3, ![64, 2048, 512]⟩ : Shape).Idx → EReal} {fuse : (⟨2, ![64, 1024]⟩ : Shape).Idx → EReal}
    {wq : (⟨2, ![512, 1024]⟩ : Shape).Idx → EReal} {wk : (⟨2, ![512, 512]⟩ : Shape).Idx → EReal}
    {wt : (⟨2, ![1, 512]⟩ : Shape).Idx → EReal}
    (hc : ∀ i, IsReal (conf i)) (hf : ∀ i, IsReal (fuse i)) (hq : ∀ i, IsReal (wq i)) (hk : ∀ i, IsReal (wk i))
    (ht : ∀ i, IsReal (wt i)) (b : Fin 64) (n : Fin 2048) : IsReal (score conf fuse wq wk wt b n) :=
  IsReal.sum _ _ fun _ _ =>
    (((query_isReal hf hq b _).add (IsReal.sum _ _ fun _ _ => (hc _).mul (hk _))).tanh).mul (ht _)

end Cert.Spec

end
-- ==== Proof.Blocks.lean ====
/-
  What the kernel's windows hold, entry by entry, in terms of the argument arrays.

  Grid point t works on batch row b = t / 2 and on tile t % 2 of the set axis. Its query block is row b of the query array
  the host computed (fuse · Wqᵀ, a unit axis inserted), its confounder and probability blocks are rows
  1024 · (t % 2) + n of batch row b, and the two weight blocks are the whole arrays (the key weights transposed). An
  element of a block sits in its array at block index × block size + its coordinate in the block, on every axis. So the
  scores the body forms on point t's tile are the specification's scores of that tile's set elements.
-/
import proofs.«151651_j81982335746424_2_alg».proof.Proof.Gen.KernelIdeal.Frame
import proofs.«151651_j81982335746424_2_alg».proof.Proof.Payload
import proofs.«151651_j81982335746424_2_alg».proof.Proof.Spec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

variable (m : (ℓ : Loc nD τ sig) → Buf (Elt Ideal) ℓ)

/-- The printed index maps over the grid: point t works on batch row t / 2 and on tile t % 2. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- The batch row of grid point t. -/
abbrev bRow (t : Fin cfg0.N) : Fin 64 := ⟨t.val / 2, by have h := t.isLt; have hN : cfg0.N = 128 := N_0; omega⟩

/-- Set element n of point t's tile, in the whole set axis. -/
abbrev tileIdx (t : Fin cfg0.N) (n : Fin 1024) : Fin 2048 := ⟨1024 * (t.val % 2) + n.val, by have := n.isLt; omega⟩

/-! ## The two arrays the host wrote before the region -/

/-- The query array the region finds: the host product of fuse and Wq, with a unit axis inserted. -/
theorem V_v1 (c : Dev nD) :
    (V m c main_v1 : FVec Ideal S64x1x512 .f32)
      = shapeCast S64x1x512 (Host.dotGeneral (F := Ideal) (φ₁ := .f32) (φ₂ := .f32) dot_S64x1024_S512x1024_S64x512_1_1_0_0_n_n none (m ((c : Thread nD τ).loc main_arg1) : FVec Ideal S64x1024 .f32) (m ((c : Thread nD τ).loc main_arg3) : FVec Ideal S512x1024 .f32))
          shapeCasts_S64x512_S64x1x512 := by
  show StableHlo.after hostOps0 (fun b => m (c, b)) (Proc.devRef .tc main_v1) = _
  after_results
  rfl

/-- The key weights the region finds: Wk transposed (the change of float format is the identity here). -/
theorem V_v3 (c : Dev nD) :
    (V m c main_v3 : FVec Ideal S512x512 .bf16)
      = truncf (F := Ideal) .bf16 (transpose S512x512 [1, 0] (m ((c : Thread nD τ).loc main_arg4) : FVec Ideal S512x512 .f32) transposes_S512x512_S512x512_1_0) bitsLt_bf16_f32 := by
  show StableHlo.after hostOps0 (fun b => m (c, b)) (Proc.devRef .tc main_v3) = _
  after_results

theorem q_lhs0 (i : S64x512.Idx) (q : dot_S64x1024_S512x1024_S64x512_1_1_0_0_n_n.contr.Idx) : (dot_S64x1024_S512x1024_S64x512_1_1_0_0_n_n.lhsIdx i q 0).val = (i 0).val := by
  unfold DotDims.lhsIdx
  rw [dif_neg (show ¬(0 : Fin S64x1024.rank) ∈ dot_S64x1024_S512x1024_S64x512_1_1_0_0_n_n.lhsBatch by decide),
    dif_pos (show (0 : Fin S64x1024.rank) ∈ dot_S64x1024_S512x1024_S64x512_1_1_0_0_n_n.lhsNonContracting by decide)]
  rfl
theorem q_lhs1 (i : S64x512.Idx) (q : dot_S64x1024_S512x1024_S64x512_1_1_0_0_n_n.contr.Idx) : (dot_S64x1024_S512x1024_S64x512_1_1_0_0_n_n.lhsIdx i q 1).val = (q ⟨0, by decide⟩).val :=
  dot_S64x1024_S512x1024_S64x512_1_1_0_0_n_n.lhsIdx_val_of_single rfl i q
theorem q_rhs0 (i : S64x512.Idx) (q : dot_S64x1024_S512x1024_S64x512_1_1_0_0_n_n.contr.Idx) : (dot_S64x1024_S512x1024_S64x512_1_1_0_0_n_n.rhsIdx i q 0).val = (i 1).val := by
  unfold DotDims.rhsIdx
  rw [dif_neg (show ¬(0 : Fin S512x1024.rank) ∈ dot_S64x1024_S512x1024_S64x512_1_1_0_0_n_n.rhsBatch by decide),
    dif_pos (show (0 : Fin S512x1024.rank) ∈ dot_S64x1024_S512x1024_S64x512_1_1_0_0_n_n.rhsNonContracting by decide)]
  rfl
theorem q_rhs1 (i : S64x512.Idx) (q : dot_S64x1024_S512x1024_S64x512_1_1_0_0_n_n.contr.Idx) : (dot_S64x1024_S512x1024_S64x512_1_1_0_0_n_n.rhsIdx i q 1).val = (q ⟨0, by decide⟩).val :=
  dot_S64x1024_S512x1024_S64x512_1_1_0_0_n_n.rhsIdx_val_of_single rfl i q

/-- The host product at (b, h): ∑ f, fuse[b,f] · Wq[h,f]. -/
theorem query_apply (x1 : FVec Ideal S64x1024 .f32) (x3 : FVec Ideal S512x1024 .f32) (b : Fin 64) (h : Fin 512) :
    Host.dotGeneral (F := Ideal) (φ₁ := .f32) (φ₂ := .f32) dot_S64x1024_S512x1024_S64x512_1_1_0_0_n_n none x1 x3 (ix2 b h) = Cert.Spec.query x1 x3 b h := by
  unfold Cert.Spec.query
  simp only [Host.dotGeneral]
  rw [Ideal.dotGeneral_apply, ← Equiv.sum_comp (contrEquiv1 dot_S64x1024_S512x1024_S64x512_1_1_0_0_n_n 1024 rfl rfl).symm]
  refine Finset.sum_congr rfl fun k _ => ?_
  have hk := contrEquiv1_symm_val dot_S64x1024_S512x1024_S64x512_1_1_0_0_n_n 1024 rfl rfl k
  have el : dot_S64x1024_S512x1024_S64x512_1_1_0_0_n_n.lhsIdx (ix2 b h) ((contrEquiv1 dot_S64x1024_S512x1024_S64x512_1_1_0_0_n_n 1024 rfl rfl).symm k) = ix2 b k :=
    funext fun a => Fin.ext (by
      match a with
      | ⟨0, _⟩ => exact q_lhs0 _ _
      | ⟨1, _⟩ => exact (q_lhs1 _ _).trans hk)
  have er : dot_S64x1024_S512x1024_S64x512_1_1_0_0_n_n.rhsIdx (ix2 b h) ((contrEquiv1 dot_S64x1024_S512x1024_S64x512_1_1_0_0_n_n 1024 rfl rfl).symm k) = ix2 h k :=
    funext fun a => Fin.ext (by
      match a with
      | ⟨0, _⟩ => exact q_rhs0 _ _
      | ⟨1, _⟩ => exact (q_rhs1 _ _).trans hk)
  rw [el, er]

/-! ## The windows' blocks, entry by entry -/

/-- The query block of point t is row t / 2 of the query array. -/
theorem blk0 (c : Dev nD) (t : Fin cfg0.N) (h : Fin 512) :
    (iblk m c 0 t : FVec Ideal S1x1x512 .f32) (ix3 (0 : Fin 1) (0 : Fin 1) h)
      = Cert.Spec.query (m ((c : Thread nD τ).loc main_arg1) : FVec Ideal S64x1024 .f32) (m ((c : Thread nD τ).loc main_arg3) : FVec Ideal S512x1024 .f32) (bRow t) h := by
  obtain ⟨e0, e1, e2, -⟩ := idx_facts t
  unfold iblk
  rw [View.read_apply]
  show (V m c main_v1 : FVec Ideal S64x1x512 .f32) _ = _
  rw [V_v1]
  refine (shapeCast_apply _ _ _ (ix2 (bRow t) h) ?_).trans (query_apply _ _ _ _)
  rw [Shape.rowMajor_val_two, Shape.rowMajor_val_three]
  show t.val / 2 * 512 + h.val = ((win0_0.index t (0 : Fin 3) * 1 + 1 * 0) * 1 + (win0_0.index t (1 : Fin 3) * 1 + 1 * 0)) * 512
    + (win0_0.index t (2 : Fin 3) * 512 + 1 * h.val)
  omega

/-- The confounder block of point t: rows 1024 · (t % 2) + n of batch row t / 2. -/
theorem blk1 (c : Dev nD) (t : Fin cfg0.N) (n : Fin 1024) (k : Fin 512) :
    (iblk m c 1 t : FVec Ideal S1x1024x512 .f32) (ix3 (0 : Fin 1) n k)
      = (m ((c : Thread nD τ).loc main_arg0) : FVec Ideal S64x2048x512 .f32) (ix3 (bRow t) (tileIdx t n) k) := by
  obtain ⟨-, -, -, e0, e1, e2, -⟩ := idx_facts t
  unfold iblk
  rw [View.read_apply]
  show V m c main_arg0 _ = _
  rw [V_main_arg0]
  refine congrArg _ (funext fun a => Fin.ext ?_)
  match a with
  | ⟨0, _⟩ => show win0_1.index t (0 : Fin 3) * 1 + 1 * 0 = t.val / 2; omega
  | ⟨1, _⟩ => show win0_1.index t (1 : Fin 3) * 1024 + 1 * n.val = 1024 * (t.val % 2) + n.val; omega
  | ⟨2, _⟩ => show win0_1.index t (2 : Fin 3) * 512 + 1 * k.val = k.val; omega

/-- The probability block of point t. -/
theorem blk2 (c : Dev nD) (t : Fin cfg0.N) (n : Fin 1024) (u : Fin 1) :
    (iblk m c 2 t : FVec Ideal S1x1024x1 .f32) (ix3 (0 : Fin 1) n u)
      = (m ((c : Thread nD τ).loc main_arg2) : FVec Ideal S64x2048x1 .f32) (ix3 (bRow t) (tileIdx t n) u) := by
  obtain ⟨-, -, -, -, -, -, e0, e1, e2, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = t.val / 2; omega
  | ⟨1, _⟩ => show win0_2.index t (1 : Fin 3) * 1024 + 1 * n.val = 1024 * (t.val % 2) + n.val; omega
  | ⟨2, _⟩ => show win0_2.index t (2 : Fin 3) * 1 + 1 * u.val = u.val; omega

/-- The key-weight block is the whole transposed array: entry (k, h) is Wk[h, k]. -/
theorem blk3 (c : Dev nD) (t : Fin cfg0.N) (k h : Fin 512) :
    (iblk m c 3 t : FVec Ideal S512x512 .bf16) (ix2 k h) = (m ((c : Thread nD τ).loc main_arg4) : FVec Ideal S512x512 .f32) (ix2 h k) := by
  obtain ⟨-, -, -, -, -, -, -, -, -, e0, e1, -⟩ := idx_facts t
  unfold iblk
  rw [View.read_apply]
  show (V m c main_v3 : FVec Ideal S512x512 .bf16) _ = _
  rw [V_v3]
  refine Eq.trans ?_ (transpose_ix2_apply (m ((c : Thread nD τ).loc main_arg4) : FVec Ideal S512x512 .f32) transposes_S512x512_S512x512_1_0 k h)
  refine congrArg (transpose S512x512 [1, 0] (m ((c : Thread nD τ).loc main_arg4) : FVec Ideal S512x512 .f32) transposes_S512x512_S512x512_1_0) (funext fun a => Fin.ext ?_)
  match a with
  | ⟨0, _⟩ => show win0_3.index t (0 : Fin 2) * 512 + 1 * k.val = k.val; omega
  | ⟨1, _⟩ => show win0_3.index t (1 : Fin 2) * 512 + 1 * h.val = h.val; omega

/-- The score-weight block is the whole row Wt. -/
theorem blk4 (c : Dev nD) (t : Fin cfg0.N) (u : Fin 1) (h : Fin 512) :
    (iblk m c 4 t : FVec Ideal S1x512 .f32) (ix2 u h) = (m ((c : Thread nD τ).loc main_arg5) : FVec Ideal S1x512 .f32) (ix2 u h) := by
  obtain ⟨-, -, -, -, -, -, -, -, -, -, -, e0, e1, -⟩ := idx_facts t
  unfold iblk
  rw [View.read_apply]
  show V m c main_arg5 _ = _
  rw [V_main_arg5]
  refine congrArg _ (funext fun a => Fin.ext ?_)
  match a with
  | ⟨0, _⟩ => show win0_4.index t (0 : Fin 2) * 1 + 1 * u.val = u.val; omega
  | ⟨1, _⟩ => show win0_4.index t (1 : Fin 2) * 512 + 1 * h.val = h.val; omega

/-- The scores of point t's tile are the specification's scores of its set elements. -/
theorem tileScore_eq (c : Dev nD) (t : Fin cfg0.N) (n : Fin 1024) :
    tileScore (iblk m c 0 t) (iblk m c 1 t) (iblk m c 3 t) (iblk m c 4 t) n
      = Cert.Spec.score (m ((c : Thread nD τ).loc main_arg0) : FVec Ideal S64x2048x512 .f32) (m ((c : Thread nD τ).loc main_arg1) : FVec Ideal S64x1024 .f32) (m ((c : Thread nD τ).loc main_arg3) : FVec Ideal S512x1024 .f32) (m ((c : Thread nD τ).loc main_arg4) : FVec Ideal S512x512 .f32) (m ((c : Thread nD τ).loc main_arg5) : FVec Ideal S1x512 .f32)
          (bRow t) (tileIdx t n) := by
  unfold tileScore Cert.Spec.score
  refine Finset.sum_congr rfl fun h _ => ?_
  exact congrArg₂ (· * ·)
    (congrArg Ideal.tanh (congrArg₂ (· + ·) (blk0 m c t h)
      (Finset.sum_congr rfl fun k _ => congrArg₂ (· * ·) (blk1 m c t n k) (blk3 m c t k h))))
    (blk4 m c t (0 : Fin 1) h)

/-- Every entry of a confounder block is an entry of the confounder array. -/
theorem blk1_real (c : Dev nD) (t : Fin cfg0.N) (h0 : ∀ i, Cert.Spec.IsReal ((m ((c : Thread nD τ).loc main_arg0) : FVec Ideal S64x2048x512 .f32) i)) (i : S1x1024x512.Idx) :
    Cert.Spec.IsReal ((iblk m c 1 t : FVec Ideal S1x1024x512 .f32) i) := by
  unfold iblk
  rw [View.read_apply]
  show Cert.Spec.IsReal (V m c main_arg0 _)
  rw [V_main_arg0]
  exact h0 _

/-- Every entry of a probability block is an entry of the probability array. -/
theorem blk2_real (c : Dev nD) (t : Fin cfg0.N) (h2 : ∀ i, Cert.Spec.IsReal ((m ((c : Thread nD τ).loc main_arg2) : FVec Ideal S64x2048x1 .f32) i)) (i : S1x1024x1.Idx) :
    Cert.Spec.IsReal ((iblk m c 2 t : FVec Ideal S1x1024x1 .f32) i) := by
  unfold iblk
  rw [View.read_apply]
  show Cert.Spec.IsReal (V m c main_arg2 _)
  rw [V_main_arg2]
  exact h2 _

end Cert.KernelIdeal.Blocks
end
-- ==== Proof.Pieces.lean ====
/-
  What one run of the kernel body leaves behind, as pure functions of what it loaded.

  The body is run in two ways. On the first tile of a batch row (case A) it first sets its three scratch arrays — the
  running maximum m, the running denominator l and the running weighted sum acc — to (−1e30, 0, 0), and then updates them
  from the tile; nothing is stored to the output. On the other tile (case B) it updates the scratch it finds, and then
  stores acc / l to the output block. Each lemma names what one of these arrays holds afterwards as the body's own
  arithmetic (the store's value as a function of the loads) applied to the input blocks and, in case B, to the scratch
  contents found; a load that follows a store into the same array reads what was stored.
-/
import proofs.«151651_j81982335746424_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole)
variable (x0 : Vec F S1x1x512 .f32) (x1 : Vec F S1x1024x512 .f32) (x2 : Vec F S1x1024x1 .f32) (x3 : Vec F S512x512 .bf16) (x4 : Vec F S1x512 .f32)

/-! Case B: a tile that is not the first of its row. The scratch holds (m, l, acc) from the tile before. -/

/-- The running maximum case B leaves. -/
theorem sB0 (hc0 : ¬cond0_0 i) (hc1 : cond0_1 i) (xs0 xs1 : Vec F S1x1 .f32) (xs2 : Vec F S1x512 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay3 (k0_pay11 x0 x1 x3 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]

/-- The running denominator case B leaves. -/
theorem sB1 (hc0 : ¬cond0_0 i) (hc1 : cond0_1 i) (xs0 xs1 : Vec F S1x1 .f32) (xs2 : Vec F S1x512 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay1 (k0_pay14 x0 x1 x3 x4 xs0 xs1) (k0_pay15 x0 x1 x3 x4 xs0) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]

/-- The running weighted sum case B leaves. -/
theorem sB2 (hc0 : ¬cond0_0 i) (hc1 : cond0_1 i) (xs0 xs1 : Vec F S1x1 .f32) (xs2 : Vec F S1x512 .f32) :
    sout0_B_2 c i arg2 harg2 arg3 harg3 arg4 harg4 arg5 harg5 arg6 harg6 arg7 harg7 arg8 harg8 arg9 harg9 arg10 harg10 hc0 hc1 x0 x1 x2 x3 x4 xs0 xs1 xs2
      = k0_pay2 (k0_pay8 x1) (k0_pay9 x2) (k0_pay12 x0 x1 x3 x4 xs0) (k0_pay13 x0 x1 x3 x4 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]

/-- The output block case B stores: the weighted sum it has just left divided by the denominator it has just left. -/
theorem oB5 (hc0 : ¬cond0_0 i) (hc1 : cond0_1 i) (xs0 xs1 : Vec F S1x1 .f32) (xs2 : Vec F S1x512 .f32) :
    out0_B_5 c i arg2 harg2 arg3 harg3 arg4 harg4 arg5 harg5 arg6 harg6 arg7 harg7 arg8 harg8 arg9 harg9 arg10 harg10 hc0 hc1 x0 x1 x2 x3 x4 xs0 xs1 xs2
      = k0_pay4 (k0_pay2 (k0_pay8 x1) (k0_pay9 x2) (k0_pay12 x0 x1 x3 x4 xs0) (k0_pay13 x0 x1 x3 x4 xs0) xs2)
          (k0_pay1 (k0_pay14 x0 x1 x3 x4 xs0 xs1) (k0_pay15 x0 x1 x3 x4 xs0)) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]
  rw [View.readCov_unit_zero (S := S1x512) _ hz2, View.readCov_unit_zero (S := S1x1) _ hz2]

/-! Case A: the first tile of a row. The scratch is first set to (−1e30, 0, 0), then updated as in case B. -/

theorem sA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = k0_pay3 (k0_pay11 x0 x1 x3 x4 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]
  rw [View.readCov_unit_zero (S := S1x1) _ hz2]

theorem sA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = k0_pay1 (k0_pay14 x0 x1 x3 x4 k0_pay5 k0_pay6) (k0_pay15 x0 x1 x3 x4 k0_pay5) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]
  rw [View.readCov_unit_zero (S := S1x1) _ hz2, View.readCov_unit_zero (S := S1x1) _ hz2]

theorem sA2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 x4
      = k0_pay2 (k0_pay8 x1) (k0_pay9 x2) (k0_pay12 x0 x1 x3 x4 k0_pay5) (k0_pay13 x0 x1 x3 x4 k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x512) hz2]
  simp only [View.readAt_eq_ld, harg2.read_unread, harg3.read_unread, harg4.read_unread, harg5.read_unread, harg6.read_unread, harg7.read_unread, harg8.read_unread, harg9.read_unread, harg10.read_unread, View.ld_unit_zero (S := S1x1) hz2, View.ld_unit_zero (S := S1x512) hz2, View.ld_unit_zero (S := S512x512) hz2, View.ld_unit_zero (S := S1x1x512) hz3, View.ld_unit_zero (S := S1x1024x512) hz3, View.ld_unit_zero (S := S1x1024x1) hz3]
  rw [View.readCov_unit_zero (S := S1x1) _ hz2, View.readCov_unit_zero (S := S1x512) _ hz2]

end Cert.KernelIdeal.Pieces
end
-- ==== Proof.Softmax.lean ====
/-
  The law that joins a streaming softmax with the one-pass one.

  A softmax-weighted sum  (∑ e^{s n − m} · v n) / (∑ e^{s n − m})  does not depend on the shift m: numerator and
  denominator both carry the factor e^{−m}. A streaming evaluation over two tiles keeps a running shift
  (m₀, then m₁ after the first tile, then m₂ after the second) and, on entering the second tile, rescales what it has
  accumulated by e^{m₁ − m₂}; since e^{m₁ − m₂} · e^{s − m₁} = e^{s − m₂}, after the second tile every term is shifted by m₂
  and the common factor e^{−m₂} cancels. Nothing is used of the shifts except that they are real numbers: the rescaled
  initial accumulator is e^{m₀ − m₁} · 0 = 0 whatever m₀ is.

  All of this is algebra of real numbers (distributivity, cancelling a positive factor), so it is proved on ℝ and carried to
  the extended reals for values that are real.
-/
import proofs.«151651_j81982335746424_2_alg».proof.Proof.Spec
import Mathlib.Data.Finset.Fold

noncomputable section

namespace Cert.Softmax

open Cert.Spec Idealize.ShloMosaic

/-- The inclusion of ℝ in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real, in the extended reals, is the real quotient. -/
theorem div_coe_coe (a b : ℝ) (hb : b ≠ 0) : Ideal.div (a : EReal) (b : EReal) = ((a / b : ℝ) : EReal) := by
  rw [Ideal.div_coe hb, ← EReal.coe_mul, mul_one_div]

/-- A sum of exponentials over a nonempty index set is positive. -/
theorem sum_exp_pos {N : ℕ} (hN : 0 < N) (s : Fin N → ℝ) : 0 < ∑ n, Real.exp (s n) :=
  Finset.sum_pos (fun n _ => Real.exp_pos _) ⟨⟨0, hN⟩, Finset.mem_univ _⟩

/-- The streaming identity on ℝ, for a weighted accumulator: two tiles with running shifts m₀, m₁, m₂. -/
theorem real_stream {N : ℕ} (s0 s1 v0 v1 : Fin N → ℝ) (m0 m1 m2 : ℝ) :
    (Real.exp (m1 - m2) * (Real.exp (m0 - m1) * 0 + ∑ n, Real.exp (s0 n - m1) * v0 n) + ∑ n, Real.exp (s1 n - m2) * v1 n)
      / (Real.exp (m1 - m2) * (Real.exp (m0 - m1) * 0 + ∑ n, Real.exp (s0 n - m1)) + ∑ n, Real.exp (s1 n - m2))
    = (∑ n, Real.exp (s0 n) * v0 n + ∑ n, Real.exp (s1 n) * v1 n) / (∑ n, Real.exp (s0 n) + ∑ n, Real.exp (s1 n)) := by
  have e0 : ∀ n, Real.exp (m1 - m2) * Real.exp (s0 n - m1) = Real.exp (-m2) * Real.exp (s0 n) := fun n => by
    rw [← Real.exp_add, ← Real.exp_add]; congr 1; ring
  have e1 : ∀ n, Real.exp (s1 n - m2) = Real.exp (-m2) * Real.exp (s1 n) := fun n => by
    rw [← Real.exp_add]; congr 1; ring
  have hnum : Real.exp (m1 - m2) * (Real.exp (m0 - m1) * 0 + ∑ n, Real.exp (s0 n - m1) * v0 n) + ∑ n, Real.exp (s1 n - m2) * v1 n
      = Real.exp (-m2) * (∑ n, Real.exp (s0 n) * v0 n + ∑ n, Real.exp (s1 n) * v1 n) := by
    rw [mul_zero, zero_add, Finset.mul_sum, mul_add, Finset.mul_sum, Finset.mul_sum]
    congr 1
    · exact Finset.sum_congr rfl fun n _ => by rw [← mul_assoc, e0, mul_assoc]
    · exact Finset.sum_congr rfl fun n _ => by rw [e1, mul_assoc]
  have hden : Real.exp (m1 - m2) * (Real.exp (m0 - m1) * 0 + ∑ n, Real.exp (s0 n - m1)) + ∑ n, Real.exp (s1 n - m2)
      = Real.exp (-m2) * (∑ n, Real.exp (s0 n) + ∑ n, Real.exp (s1 n)) := by
    rw [mul_zero, zero_add, Finset.mul_sum, mul_add, Finset.mul_sum, Finset.mul_sum]
    congr 1
    · exact Finset.sum_congr rfl fun n _ => e0 n
    · exact Finset.sum_congr rfl fun n _ => e1 n
  rw [hnum, hden, mul_div_mul_left _ _ (Real.exp_pos _).ne']

/-- The streamed denominator is positive (two nonempty tiles). -/
theorem real_stream_den_pos {N : ℕ} (hN : 0 < N) (s0 s1 : Fin N → ℝ) (m0 m1 m2 : ℝ) :
    0 < Real.exp (m1 - m2) * (Real.exp (m0 - m1) * 0 + ∑ n, Real.exp (s0 n - m1)) + ∑ n, Real.exp (s1 n - m2) := by
  have h0 : 0 < ∑ n, Real.exp (s0 n - m1) := sum_exp_pos hN _
  have h1 : 0 < ∑ n, Real.exp (s1 n - m2) := sum_exp_pos hN _
  rw [mul_zero, zero_add]
  exact add_pos (mul_pos (Real.exp_pos _) h0) h1

/-- The streaming identity on the extended reals, for values that are real numbers. -/
theorem stream_eq {N : ℕ} (hN : 0 < N) (s0 s1 v0 v1 : Fin N → EReal) (m0 m1 m2 : EReal)
    (hs0 : ∀ n, IsReal (s0 n)) (hs1 : ∀ n, IsReal (s1 n)) (hv0 : ∀ n, IsReal (v0 n)) (hv1 : ∀ n, IsReal (v1 n))
    (hm0 : IsReal m0) (hm1 : IsReal m1) (hm2 : IsReal m2) :
    Ideal.div
        (Ideal.exp (m1 - m2) * (Ideal.exp (m0 - m1) * 0 + ∑ n, Ideal.exp (s0 n - m1) * v0 n) + ∑ n, Ideal.exp (s1 n - m2) * v1 n)
        (Ideal.exp (m1 - m2) * (Ideal.exp (m0 - m1) * 0 + ∑ n, Ideal.exp (s0 n - m1)) + ∑ n, Ideal.exp (s1 n - m2))
      = Ideal.div (∑ n, Ideal.exp (s0 n) * v0 n + ∑ n, Ideal.exp (s1 n) * v1 n)
          (∑ n, Ideal.exp (s0 n) + ∑ n, Ideal.exp (s1 n)) := by
  choose s0' hs0' using hs0
  choose s1' hs1' using hs1
  choose v0' hv0' using hv0
  choose v1' hv1' using hv1
  obtain ⟨m0', rfl⟩ := hm0
  obtain ⟨m1', rfl⟩ := hm1
  obtain ⟨m2', rfl⟩ := hm2
  obtain rfl : s0 = fun n => (s0' n : EReal) := funext hs0'
  obtain rfl : s1 = fun n => (s1' n : EReal) := funext hs1'
  obtain rfl : v0 = fun n => (v0' n : EReal) := funext hv0'
  obtain rfl : v1 = fun n => (v1' n : EReal) := funext hv1'
  simp only [← EReal.coe_sub, Ideal.exp_coe, ← EReal.coe_mul, ← EReal.coe_zero, ← coe_sum, ← EReal.coe_add]
  rw [div_coe_coe _ _ (real_stream_den_pos hN s0' s1' m0' m1' m2').ne',
    div_coe_coe _ _ (add_pos (sum_exp_pos hN s0') (sum_exp_pos hN s1')).ne', real_stream]

/-- A running maximum that starts from a real number and absorbs real numbers stays a real number: it is at least its
    start, and below +∞ because every term is. -/
theorem isReal_max_fold {N : ℕ} (m : EReal) (hm : IsReal m) (s : Fin N → EReal) (hs : ∀ n, IsReal (s n)) :
    IsReal (max m ((Finset.univ : Finset (Fin N)).fold max ⊥ s)) := by
  refine isReal_of_ne (fun h => hm.ne_bot (le_bot_iff.mp (h ▸ le_max_left _ _))) (ne_of_lt (max_lt ?_ ?_))
  · exact lt_top_iff_ne_top.mpr hm.ne_top
  · exact (Finset.fold_max_lt ⊤).mpr ⟨bot_lt_top, fun n _ => lt_top_iff_ne_top.mpr (hs n).ne_top⟩

end Cert.Softmax

end
-- ==== Proof.RowValue.lean ====
/-
  One batch row, both tiles: what the output block holds after the second tile.

  The first tile starts the scratch at (m₀, 0, 0) with m₀ the real number −1e30 (its exact binary value; any real number
  would do) and leaves (m₁, l₁, acc₁); the second tile turns these into (m₂, l₂, acc₂) and stores acc₂ / l₂. Read at
  column c this is exactly the two-tile streaming form whose value, for real scores and real entries, is the shift-free
  softmax-weighted sum over both tiles:
      (∑ e^{s₀ n} · v₀ n + ∑ e^{s₁ n} · v₁ n) / (∑ e^{s₀ n} + ∑ e^{s₁ n}),     v n = X[n,c] · p n.
  The running maxima m₁, m₂ enter only through being real numbers.
-/
import proofs.«151651_j81982335746424_2_alg».proof.Proof.Payload
import proofs.«151651_j81982335746424_2_alg».proof.Proof.Softmax

noncomputable section

namespace Cert.KernelIdeal.RowValue

open Idealize.ShloMosaic Idealize.ShloMosaic.ValueIdx Idealize.ShloMosaic.TcCoe
open Cert.KernelIdeal Cert.KernelIdeal.Gen Cert.KernelIdeal.Payload Cert.Spec Cert.Softmax

/-- The word the running maximum starts from denotes a real number (−1e30, exactly a dyadic rational). -/
theorem isReal_start : IsReal (Ideal.ofBits .f32 0xF149F2CA#32) := by
  change IsReal (Ideal.ieee 8 23 (0xF149F2CA#32 : BitVec 32))
  unfold Ideal.ieee
  dsimp only
  rw [if_neg (by decide), if_neg (by decide)]
  exact ⟨_, rfl⟩

/-- The running maximum after the first tile. -/
def scrM (q0 : FVec Ideal S1x1x512 .f32) (X0 : FVec Ideal S1x1024x512 .f32) (P0 : FVec Ideal S1x1024x1 .f32) (W0 : FVec Ideal S512x512 .bf16) (wt0 : FVec Ideal S1x512 .f32) : FVec Ideal S1x1 .f32 :=
  k0_pay3 (k0_pay11 (F := Ideal) q0 X0 W0 wt0 (k0_pay5 (F := Ideal)))

/-- The running denominator after the first tile. -/
def scrL (q0 : FVec Ideal S1x1x512 .f32) (X0 : FVec Ideal S1x1024x512 .f32) (P0 : FVec Ideal S1x1024x1 .f32) (W0 : FVec Ideal S512x512 .bf16) (wt0 : FVec Ideal S1x512 .f32) : FVec Ideal S1x1 .f32 :=
  k0_pay1 (k0_pay14 (F := Ideal) q0 X0 W0 wt0 (k0_pay5 (F := Ideal)) (k0_pay6 (F := Ideal))) (k0_pay15 (F := Ideal) q0 X0 W0 wt0 (k0_pay5 (F := Ideal)))

/-- The running weighted sum after the first tile. -/
def scrAcc (q0 : FVec Ideal S1x1x512 .f32) (X0 : FVec Ideal S1x1024x512 .f32) (P0 : FVec Ideal S1x1024x1 .f32) (W0 : FVec Ideal S512x512 .bf16) (wt0 : FVec Ideal S1x512 .f32) : FVec Ideal S1x512 .f32 :=
  k0_pay2 (k0_pay8 (F := Ideal) X0) (k0_pay9 (F := Ideal) P0) (k0_pay12 (F := Ideal) q0 X0 W0 wt0 (k0_pay5 (F := Ideal)))
    (k0_pay13 (F := Ideal) q0 X0 W0 wt0 (k0_pay5 (F := Ideal))) (k0_pay7 (F := Ideal))

/-- The output block after the second tile. -/
def rowOut (q0 : FVec Ideal S1x1x512 .f32) (X0 : FVec Ideal S1x1024x512 .f32) (P0 : FVec Ideal S1x1024x1 .f32) (W0 : FVec Ideal S512x512 .bf16) (wt0 : FVec Ideal S1x512 .f32) (q1 : FVec Ideal S1x1x512 .f32) (X1 : FVec Ideal S1x1024x512 .f32) (P1 : FVec Ideal S1x1024x1 .f32) (W1 : FVec Ideal S512x512 .bf16) (wt1 : FVec Ideal S1x512 .f32) : FVec Ideal S1x1x512 .f32 :=
  k0_pay4
    (k0_pay2 (k0_pay8 (F := Ideal) X1) (k0_pay9 (F := Ideal) P1) (k0_pay12 (F := Ideal) q1 X1 W1 wt1 (scrM q0 X0 P0 W0 wt0))
      (k0_pay13 (F := Ideal) q1 X1 W1 wt1 (scrM q0 X0 P0 W0 wt0)) (scrAcc q0 X0 P0 W0 wt0))
    (k0_pay1 (k0_pay14 (F := Ideal) q1 X1 W1 wt1 (scrM q0 X0 P0 W0 wt0) (scrL q0 X0 P0 W0 wt0))
      (k0_pay15 (F := Ideal) q1 X1 W1 wt1 (scrM q0 X0 P0 W0 wt0)))

theorem rowOut_apply (q0 : FVec Ideal S1x1x512 .f32) (X0 : FVec Ideal S1x1024x512 .f32) (P0 : FVec Ideal S1x1024x1 .f32) (W0 : FVec Ideal S512x512 .bf16) (wt0 : FVec Ideal S1x512 .f32) (q1 : FVec Ideal S1x1x512 .f32) (X1 : FVec Ideal S1x1024x512 .f32) (P1 : FVec Ideal S1x1024x1 .f32) (W1 : FVec Ideal S512x512 .bf16) (wt1 : FVec Ideal S1x512 .f32)
    (hs0 : ∀ n, IsReal (tileScore q0 X0 W0 wt0 n)) (hs1 : ∀ n, IsReal (tileScore q1 X1 W1 wt1 n))
    (hX0 : ∀ i, IsReal (X0 i)) (hP0 : ∀ i, IsReal (P0 i)) (hX1 : ∀ i, IsReal (X1 i)) (hP1 : ∀ i, IsReal (P1 i))
    (u v : Fin 1) (c : Fin 512) :
    rowOut q0 X0 P0 W0 wt0 q1 X1 P1 W1 wt1 (ix3 u v c)
      = Ideal.div
          (∑ n : Fin 1024, Ideal.exp (tileScore q0 X0 W0 wt0 n) * (X0 (ix3 (0 : Fin 1) n c) * P0 (ix3 (0 : Fin 1) n (0 : Fin 1)))
            + ∑ n : Fin 1024, Ideal.exp (tileScore q1 X1 W1 wt1 n) * (X1 (ix3 (0 : Fin 1) n c) * P1 (ix3 (0 : Fin 1) n (0 : Fin 1))))
          (∑ n : Fin 1024, Ideal.exp (tileScore q0 X0 W0 wt0 n) + ∑ n : Fin 1024, Ideal.exp (tileScore q1 X1 W1 wt1 n)) := by
  obtain rfl : v = 0 := Subsingleton.elim _ _
  unfold rowOut scrM scrL scrAcc
  simp only [pay4_apply, pay2_apply, pay1_apply, pay14_apply, pay12_apply, pay13_apply, pay15_apply, pay11_apply, pay3_eq,
    pay5_apply, pay6_apply, pay7_apply, pay8_apply, pay9_apply]
  have hm1 := isReal_max_fold _ isReal_start _ hs0
  exact stream_eq (by norm_num) _ _ (fun n => X0 (ix3 (0 : Fin 1) n c) * P0 (ix3 (0 : Fin 1) n (0 : Fin 1)))
    (fun n => X1 (ix3 (0 : Fin 1) n c) * P1 (ix3 (0 : Fin 1) n (0 : Fin 1))) _ _ _ hs0 hs1
    (fun n => (hX0 _).mul (hP0 _)) (fun n => (hX1 _).mul (hP1 _)) isReal_start hm1 (isReal_max_fold _ hm1 _ hs1)

end Cert.KernelIdeal.RowValue

end
-- ==== Proof.SpecTiles.lean ====
/-
  The specification over the two tiles of the set axis.

  The set axis has 2048 elements and the kernel walks it in two tiles of 1024: element n of the first tile is set element
  n, element n of the second is set element 1024 + n. A sum over the set axis is the sum over the first tile plus the sum
  over the second, so the pooled value is the quotient of two such two-part sums.
-/
import proofs.«151651_j81982335746424_2_alg».proof.Proof.Spec
import Mathlib.Algebra.BigOperators.Fin

noncomputable section

namespace Cert.Spec

open Idealize.ShloMosaic Idealize.ShloMosaic.ValueIdx

/-- Set element n of the first tile. -/
abbrev lo (n : Fin 1024) : Fin 2048 := ⟨n.val, by have := n.isLt; omega⟩

/-- Set element n of the second tile. -/
abbrev hi (n : Fin 1024) : Fin 2048 := ⟨1024 + n.val, by have := n.isLt; omega⟩

/-- A sum over the set axis, tile by tile. -/
theorem sum_tiles {M : Type*} [AddCommMonoid M] (f : Fin 2048 → M) :
    ∑ n : Fin 2048, f n = ∑ n : Fin 1024, f (lo n) + ∑ n : Fin 1024, f (hi n) :=
  Fin.sum_univ_add (a := 1024) (b := 1024) f

/-- The pooled value with both of its sums taken tile by tile. -/
theorem pooled_tiles (conf : (⟨3, ![64, 2048, 512]⟩ : Shape).Idx → EReal) (fuse : (⟨2, ![64, 1024]⟩ : Shape).Idx → EReal)
    (prob : (⟨3, ![64, 2048, 1]⟩ : Shape).Idx → EReal)
    (wq : (⟨2, ![512, 1024]⟩ : Shape).Idx → EReal) (wk : (⟨2, ![512, 512]⟩ : Shape).Idx → EReal)
    (wt : (⟨2, ![1, 512]⟩ : Shape).Idx → EReal) (b : Fin 64) (c : Fin 512) :
    pooled conf fuse prob wq wk wt b c
      = Ideal.div
          (∑ n : Fin 1024, Ideal.exp (score conf fuse wq wk wt b (lo n)) * (conf (ix3 b (lo n) c) * prob (ix3 b (lo n) (0 : Fin 1)))
            + ∑ n : Fin 1024, Ideal.exp (score conf fuse wq wk wt b (hi n)) * (conf (ix3 b (hi n) c) * prob (ix3 b (hi n) (0 : Fin 1))))
          (∑ n : Fin 1024, Ideal.exp (score conf fuse wq wk wt b (lo n))
            + ∑ n : Fin 1024, Ideal.exp (score conf fuse wq wk wt b (hi n))) := by
  unfold pooled
  rw [sum_tiles, sum_tiles (fun n => Ideal.exp (score conf fuse wq wk wt b n))]

end Cert.Spec

end
-- ==== Proof.KernelValue.lean ====
/-
  The kernel's result array as one function of the argument arrays.

  The grid visits the batch rows in order, two points per row. The even point (first tile) leaves in the scratch the
  running (m, l, acc) of that tile alone; the odd point (second tile) updates them and stores acc / l into the row's output
  block, which is written back then and only then. By the streaming identity that block is the pooled row of the
  specification, provided every argument entry is a real number. The odd points' blocks tile the region's result array
  [64, 1, 512] (row b is written by point 2 b + 1), so the array ends holding the pooled rows, and the reshape after the region
  only drops the unit axis.
-/
import proofs.«151651_j81982335746424_2_alg».proof.Proof.Gen.KernelIdeal.Frame
import proofs.«151651_j81982335746424_2_alg».proof.Proof.Blocks
import proofs.«151651_j81982335746424_2_alg».proof.Proof.Pieces
import proofs.«151651_j81982335746424_2_alg».proof.Proof.RowValue
import proofs.«151651_j81982335746424_2_alg».proof.Proof.SpecTiles
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.KernelIdeal.Blocks Cert.KernelIdeal.RowValue
open Cert.KernelIdeal.Pieces Cert.Spec

variable (m : (ℓ : Loc nD τ sig) → Buf (Elt Ideal) ℓ) (ρ : Dev nD → PrngReg)

/-- Every entry of every argument array on core c is a real number. -/
def AllReal (c : Dev nD) : Prop :=
  (∀ i, IsReal ((m ((c : Thread nD τ).loc main_arg0) : FVec Ideal S64x2048x512 .f32) i)) ∧ (∀ i, IsReal ((m ((c : Thread nD τ).loc main_arg1) : FVec Ideal S64x1024 .f32) i)) ∧ (∀ i, IsReal ((m ((c : Thread nD τ).loc main_arg2) : FVec Ideal S64x2048x1 .f32) i))
    ∧ (∀ i, IsReal ((m ((c : Thread nD τ).loc main_arg3) : FVec Ideal S512x1024 .f32) i)) ∧ (∀ i, IsReal ((m ((c : Thread nD τ).loc main_arg4) : FVec Ideal S512x512 .f32) i)) ∧ (∀ i, IsReal ((m ((c : Thread nD τ).loc main_arg5) : FVec Ideal S1x512 .f32) i))

/-- The grid point before t. -/
abbrev prev (t : Fin cfg0.N) : Fin cfg0.N := ⟨t.val - 1, Nat.lt_of_le_of_lt (Nat.sub_le t.val 1) t.isLt⟩

set_option maxHeartbeats 400000 in
/-- After an even grid point (the first tile of a batch row) the scratch holds that tile's (m, l, acc). -/
theorem scr_even (c : Dev nD) (t : Fin cfg0.N) (h0 : t.val % 2 = 0) :
    (outsAt0 (F := Ideal) m c t.val t.isLt).2.1 = scrM (iblk m c 0 t) (iblk m c 1 t) (iblk m c 2 t) (iblk m c 3 t) (iblk m c 4 t)
    ∧ (outsAt0 (F := Ideal) m c t.val t.isLt).2.2.1 = scrL (iblk m c 0 t) (iblk m c 1 t) (iblk m c 2 t) (iblk m c 3 t) (iblk m c 4 t)
    ∧ (outsAt0 (F := Ideal) m c t.val t.isLt).2.2.2 = scrAcc (iblk m c 0 t) (iblk m c 1 t) (iblk m c 2 t) (iblk m c 3 t) (iblk m c 4 t) := by
  have h1 : ¬t.val % 2 = 1 := by omega
  unfold scrM scrL scrAcc
  rw [outsAt0_A m c t h0 h1]
  dsimp only
  refine ⟨?_, ?_, ?_⟩
  · exact sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))
  · exact sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))
  · exact sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))

set_option maxHeartbeats 400000 in
theorem after5_odd (c : Dev nD) (t : Fin cfg0.N) (h1 : t.val % 2 = 1) :
    (dats (F := Ideal) m 0 c).after 5 t = rowOut (iblk m c 0 (prev t)) (iblk m c 1 (prev t)) (iblk m c 2 (prev t)) (iblk m c 3 (prev t)) (iblk m c 4 (prev t)) (iblk m c 0 t) (iblk m c 1 t) (iblk m c 2 t) (iblk m c 3 t) (iblk m c 4 t) := by
  have h0 : ¬t.val % 2 = 0 := by omega
  obtain ⟨e0, e1, e2⟩ := scr_even m c (prev t) (by show (t.val - 1) % 2 = 0; omega)
  have e0' : (outsAt0 (F := Ideal) m c (t.val - 1) (Nat.lt_of_le_of_lt (Nat.sub_le t.val 1) t.isLt)).2.1 = scrM (iblk m c 0 (prev t)) (iblk m c 1 (prev t)) (iblk m c 2 (prev t)) (iblk m c 3 (prev t)) (iblk m c 4 (prev t)) := e0
  have e1' : (outsAt0 (F := Ideal) m c (t.val - 1) (Nat.lt_of_le_of_lt (Nat.sub_le t.val 1) t.isLt)).2.2.1 = scrL (iblk m c 0 (prev t)) (iblk m c 1 (prev t)) (iblk m c 2 (prev t)) (iblk m c 3 (prev t)) (iblk m c 4 (prev t)) := e1
  have e2' : (outsAt0 (F := Ideal) m c (t.val - 1) (Nat.lt_of_le_of_lt (Nat.sub_le t.val 1) t.isLt)).2.2.2 = scrAcc (iblk m c 0 (prev t)) (iblk m c 1 (prev t)) (iblk m c 2 (prev t)) (iblk m c 3 (prev t)) (iblk m c 4 (prev t)) := e2
  rw [after0_5, outsAt0_B m c t h0 h1]
  dsimp only
  refine (oB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (fun h => h0 ((hcond0_0 t).mp h)) ((hcond0_1 t).mpr h1) (outsAt0 (F := Ideal) m c (t.val - 1) (Nat.lt_of_le_of_lt (Nat.sub_le t.val 1) t.isLt)).2.1 (outsAt0 (F := Ideal) m c (t.val - 1) (Nat.lt_of_le_of_lt (Nat.sub_le t.val 1) t.isLt)).2.2.1 (outsAt0 (F := Ideal) m c (t.val - 1) (Nat.lt_of_le_of_lt (Nat.sub_le t.val 1) t.isLt)).2.2.2).trans ?_
  rw [e0', e1', e2']
  unfold rowOut
  rfl

/-- What the region's result array [64, 1, 512] ends holding: row b is the pooled row of batch row b. -/
def G4 (c : Dev nD) : FVec Ideal S64x1x512 .f32 :=
  fun i => pooled (m ((c : Thread nD τ).loc main_arg0) : FVec Ideal S64x2048x512 .f32) (m ((c : Thread nD τ).loc main_arg1) : FVec Ideal S64x1024 .f32) (m ((c : Thread nD τ).loc main_arg2) : FVec Ideal S64x2048x1 .f32) (m ((c : Thread nD τ).loc main_arg3) : FVec Ideal S512x1024 .f32) (m ((c : Thread nD τ).loc main_arg4) : FVec Ideal S512x512 .f32) (m ((c : Thread nD τ).loc main_arg5) : FVec Ideal S1x512 .f32) (i 0) (i 2)

set_option maxHeartbeats 800000 in
/-- The block an odd point writes back is the block of `G4` at that point. -/
theorem flushed_eq (c : Dev nD) (hr : AllReal m c) (t : Fin cfg0.N) (hf : (cfg0.win 5).flush t = true) :
    (dats (F := Ideal) m 0 c).flushed 5 t = ((cfg0.win 5).blk t).view.read (Elt Ideal) (G4 m c) := by
  have h1 : t.val % 2 = 1 := (flush0_5 t).mp hf
  obtain ⟨r0, r1, r2, r3, r4, r5⟩ := hr
  obtain ⟨-, -, -, -, -, -, -, -, -, -, -, -, -, e0, e1, e2⟩ := idx_facts t
  show (cfg0.win 5).cut (grid0.coords t) ((dats m 0 c).after 5 t) = _
  rw [after5_odd m c t h1]
  funext j
  rw [View.read_apply]
  obtain ⟨u, v, k, rfl⟩ : ∃ (u : Fin 1) (v : Fin 1) (k : Fin 512), j = ix3 u v k := ⟨j 0, j 1, j 2, eq_ix3 j⟩
  have hemb : ((cfg0.win 5).blk t).view.emb (ix3 u v k) = ix3 (bRow t) (0 : Fin 1) k := funext fun a => Fin.ext (by
    match a with
    | ⟨0, _⟩ => show win0_5.index t (0 : Fin 3) * 1 + 1 * u.val = t.val / 2; have := u.isLt; omega
    | ⟨1, _⟩ => show win0_5.index t (1 : Fin 3) * 1 + 1 * v.val = 0; have := v.isLt; omega
    | ⟨2, _⟩ => show win0_5.index t (2 : Fin 3) * 512 + 1 * k.val = k.val; omega)
  rw [hemb]
  show rowOut (iblk m c 0 (prev t)) (iblk m c 1 (prev t)) (iblk m c 2 (prev t)) (iblk m c 3 (prev t)) (iblk m c 4 (prev t)) (iblk m c 0 t) (iblk m c 1 t) (iblk m c 2 t) (iblk m c 3 t) (iblk m c 4 t) (ix3 u v k) = pooled (m ((c : Thread nD τ).loc main_arg0) : FVec Ideal S64x2048x512 .f32) (m ((c : Thread nD τ).loc main_arg1) : FVec Ideal S64x1024 .f32) (m ((c : Thread nD τ).loc main_arg2) : FVec Ideal S64x2048x1 .f32) (m ((c : Thread nD τ).loc main_arg3) : FVec Ideal S512x1024 .f32) (m ((c : Thread nD τ).loc main_arg4) : FVec Ideal S512x512 .f32) (m ((c : Thread nD τ).loc main_arg5) : FVec Ideal S1x512 .f32) (bRow t) k
  have hbp : bRow (prev t) = bRow t := Fin.ext (by show (t.val - 1) / 2 = t.val / 2; omega)
  have hlo : ∀ n, tileIdx (prev t) n = lo n := fun n => Fin.ext (by show 1024 * ((t.val - 1) % 2) + n.val = n.val; omega)
  have hhi : ∀ n, tileIdx t n = hi n := fun n => Fin.ext (by show 1024 * (t.val % 2) + n.val = 1024 + n.val; omega)
  have hsr : ∀ b n, IsReal (score (m ((c : Thread nD τ).loc main_arg0) : FVec Ideal S64x2048x512 .f32) (m ((c : Thread nD τ).loc main_arg1) : FVec Ideal S64x1024 .f32) (m ((c : Thread nD τ).loc main_arg3) : FVec Ideal S512x1024 .f32) (m ((c : Thread nD τ).loc main_arg4) : FVec Ideal S512x512 .f32) (m ((c : Thread nD τ).loc main_arg5) : FVec Ideal S1x512 .f32) b n) := score_isReal r0 r1 r3 r4 r5
  have hs0 : ∀ n, tileScore (iblk m c 0 (prev t)) (iblk m c 1 (prev t)) (iblk m c 3 (prev t)) (iblk m c 4 (prev t)) n
      = score (m ((c : Thread nD τ).loc main_arg0) : FVec Ideal S64x2048x512 .f32) (m ((c : Thread nD τ).loc main_arg1) : FVec Ideal S64x1024 .f32) (m ((c : Thread nD τ).loc main_arg3) : FVec Ideal S512x1024 .f32) (m ((c : Thread nD τ).loc main_arg4) : FVec Ideal S512x512 .f32) (m ((c : Thread nD τ).loc main_arg5) : FVec Ideal S1x512 .f32) (bRow t) (lo n) := fun n => by rw [tileScore_eq m c (prev t) n, hbp, hlo]
  have hs1 : ∀ n, tileScore (iblk m c 0 t) (iblk m c 1 t) (iblk m c 3 t) (iblk m c 4 t) n
      = score (m ((c : Thread nD τ).loc main_arg0) : FVec Ideal S64x2048x512 .f32) (m ((c : Thread nD τ).loc main_arg1) : FVec Ideal S64x1024 .f32) (m ((c : Thread nD τ).loc main_arg3) : FVec Ideal S512x1024 .f32) (m ((c : Thread nD τ).loc main_arg4) : FVec Ideal S512x512 .f32) (m ((c : Thread nD τ).loc main_arg5) : FVec Ideal S1x512 .f32) (bRow t) (hi n) := fun n => by rw [tileScore_eq m c t n, hhi]
  refine (rowOut_apply (iblk m c 0 (prev t)) (iblk m c 1 (prev t)) (iblk m c 2 (prev t)) (iblk m c 3 (prev t)) (iblk m c 4 (prev t)) (iblk m c 0 t) (iblk m c 1 t) (iblk m c 2 t) (iblk m c 3 t) (iblk m c 4 t)
    (fun n => by rw [hs0 n]; exact hsr _ _) (fun n => by rw [hs1 n]; exact hsr _ _)
    (blk1_real m c (prev t) r0) (blk2_real m c (prev t) r2) (blk1_real m c t r0) (blk2_real m c t r2) u v k).trans ?_
  rw [pooled_tiles]
  refine congrArg₂ Ideal.div
    (congrArg₂ (· + ·) (Finset.sum_congr rfl fun n _ => ?_) (Finset.sum_congr rfl fun n _ => ?_))
    (congrArg₂ (· + ·) (Finset.sum_congr rfl fun n _ => ?_) (Finset.sum_congr rfl fun n _ => ?_))
  · rw [hs0 n, blk1 m c (prev t) n k, blk2 m c (prev t) n (0 : Fin 1), hbp, hlo]
  · rw [hs1 n, blk1 m c t n k, blk2 m c t n (0 : Fin 1), hhi]
  · rw [hs0 n]
  · rw [hs1 n]

/-- An index of the result array is in point t's block iff each coordinate is in the block's range on its axis. -/
theorem mem_blk5 (t : Fin cfg0.N) (i : S64x1x512.Idx) :
    i ∈ ((cfg0.win 5).blk t).view.set ↔ ∀ a : Fin 3, win0_5.index t a * S1x1x512.size a ≤ (i a).val
      ∧ (i a).val < win0_5.index t a * S1x1x512.size a + S1x1x512.size a := by
  show i ∈ ((View.whole main_v4).slice (win0_5.rect t)).set ↔ _
  rw [View.set_slice_whole, Rect.mem_set_unit]
  exact Iff.rfl

/-- Row b of the result array is written back by the odd point 2 b + 1. -/
theorem cover5 (i : S64x1x512.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 512 := (i 2).isLt
  have hN : cfg0.N = 128 := N_0
  let t : Fin cfg0.N := ⟨2 * (i 0).val + 1, by omega⟩
  obtain ⟨-, -, -, -, -, -, -, -, -, -, -, -, -, e0, e1, e2⟩ := idx_facts t
  have ht : t.val = 2 * (i 0).val + 1 := rfl
  refine ⟨t, (flush0_5 t).mpr (by rw [ht]; omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-- The region's result array after the run. -/
theorem final4 (c : Dev nD) (hr : AllReal m c) : (dats (F := Ideal) m 0 c).arrAt 5 cfg0.N = G4 m c :=
  (dats m 0 c).arrAt_eq_of_cover 5 (G4 m c) (fun t hf => flushed_eq m c hr t hf) cover5

/-- The program's result [64, 512]: entry (b, k) is the pooled value. -/
def result (c : Dev nD) : FVec Ideal S64x512 .f32 :=
  fun i => pooled (m ((c : Thread nD τ).loc main_arg0) : FVec Ideal S64x2048x512 .f32) (m ((c : Thread nD τ).loc main_arg1) : FVec Ideal S64x1024 .f32) (m ((c : Thread nD τ).loc main_arg2) : FVec Ideal S64x2048x1 .f32) (m ((c : Thread nD τ).loc main_arg3) : FVec Ideal S512x1024 .f32) (m ((c : Thread nD τ).loc main_arg4) : FVec Ideal S512x512 .f32) (m ((c : Thread nD τ).loc main_arg5) : FVec Ideal S1x512 .f32) (i 0) (i 1)

/-- The reshape after the region drops the unit axis. -/
theorem tail_eq (c : Dev nD) (hr : AllReal m c) :
    Pipeline.afterTail₀ cfgs (dats (F := Ideal) m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats (F := Ideal) m 0 c).arrAt w (cfgs 0).N)
      (Proc.devRef .tc main_v4) = G4 m c :=
    (Pipeline.withArrays_arr spec0 launch0.win.arr_inj c _ _ 5).trans (final4 m c hr)
  funext i
  obtain ⟨b, k, rfl⟩ : ∃ (b : Fin 64) (k : Fin 512), i = ix2 b k := ⟨i 0, i 1, eq_ix2 i⟩
  show shapeCast S64x512 (Pipeline.withArrays (cfgs 0).spec c (V0 m c) (fun w => (dats (F := Ideal) m 0 c).arrAt w (cfgs 0).N)
      (Proc.devRef .tc main_v4)) shapeCasts_S64x1x512_S64x512 (ix2 b k) = pooled (m ((c : Thread nD τ).loc main_arg0) : FVec Ideal S64x2048x512 .f32) (m ((c : Thread nD τ).loc main_arg1) : FVec Ideal S64x1024 .f32) (m ((c : Thread nD τ).loc main_arg2) : FVec Ideal S64x2048x1 .f32) (m ((c : Thread nD τ).loc main_arg3) : FVec Ideal S512x1024 .f32) (m ((c : Thread nD τ).loc main_arg4) : FVec Ideal S512x512 .f32) (m ((c : Thread nD τ).loc main_arg5) : FVec Ideal S1x512 .f32) b k
  rw [hw]
  refine shapeCast_apply (G4 m c) _ (ix2 b k) (ix3 b (0 : Fin 1) k) ?_
  rw [Shape.rowMajor_val_two, Shape.rowMajor_val_three]
  show (b.val * 1 + 0) * 512 + k.val = b.val * 512 + k.val
  omega

/-- THE KERNEL'S RUN, READ: under real inputs every weakly fair execution ends with the result array holding the pooled
    values and the arguments unchanged. -/
theorem run (hr : ∀ c, AllReal m c) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c (hr c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.KValue
end
-- ==== Proof.RefSoftmax.lean ====
/-
  The softmax-weighted sum on the extended reals, at real data.

  With real scores s n, a real shift M and real factors x n, p n over a nonempty finite index set,
      0 + ∑ n, ((e^{s n − M} / (0 + ∑ k, e^{s k − M})) · x n) · p n  =  (∑ n, e^{s n} · (x n · p n)) / (∑ n, e^{s n}).
  Every term is a real number, so both sides are the coercions of real numbers; over the reals
  e^{s n − M} = e^{s n} · e^{−M}, the common factor e^{−M} > 0 cancels between numerator and denominator, and the
  denominators are positive because the index set is nonempty.

  Also here: a maximum folded from −∞ over a nonempty finite family of real numbers is a real number (it is one of
  the family's members).
-/
import Idealize.ShloMosaic.PureOps.Ideal
import Mathlib.Analysis.SpecialFunctions.Exp

noncomputable section

namespace Cert.RefSoftmax

open Idealize.ShloMosaic Finset

/-- The coercion of the reals into the extended reals commutes with finite sums. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Over the reals: the shifted softmax weights, each divided by their sum, give the shift-free quotient. -/
theorem real_softmax_pool {ι : Type*} [Fintype ι] [Nonempty ι] (s v : ι → ℝ) (M : ℝ) :
    ∑ n, Real.exp (s n - M) * (1 / ∑ k, Real.exp (s k - M)) * v n
      = (∑ n, Real.exp (s n) * v n) * (1 / ∑ n, Real.exp (s n)) := by
  have hsplit : ∀ n, Real.exp (s n - M) = Real.exp (s n) * Real.exp (-M) := fun n => by
    rw [← Real.exp_add]; congr 1
  have hc : 0 < Real.exp (-M) := Real.exp_pos _
  have hS : 0 < ∑ n, Real.exp (s n) := Finset.sum_pos (fun n _ => Real.exp_pos _) Finset.univ_nonempty
  simp only [hsplit, ← Finset.sum_mul]
  rw [Finset.sum_mul (Finset.univ) (fun n => Real.exp (s n) * v n)]
  refine Finset.sum_congr rfl fun n _ => ?_
  field_simp

/-- On the extended reals, at real data: the softmax-weighted sum evaluated with a real shift M of the exponents is
    the shift-free quotient. -/
theorem softmax_pool {ι : Type*} [Fintype ι] [Nonempty ι] (s x p : ι → ℝ) (M : ℝ) :
    (0 : EReal) + ∑ n, (Ideal.div (Ideal.exp ((s n : EReal) - (M : EReal)))
          ((0 : EReal) + ∑ k, Ideal.exp ((s k : EReal) - (M : EReal))) * (x n : EReal)) * (p n : EReal)
      = Ideal.div (∑ n, Ideal.exp (s n : EReal) * ((x n : EReal) * (p n : EReal))) (∑ n, Ideal.exp (s n : EReal)) := by
  have hD : (∑ k, Real.exp (s k - M)) ≠ 0 :=
    (Finset.sum_pos (fun n _ => Real.exp_pos _) Finset.univ_nonempty).ne'
  have hS : (∑ n, Real.exp (s n)) ≠ 0 :=
    (Finset.sum_pos (fun n _ => Real.exp_pos _) Finset.univ_nonempty).ne'
  simp only [← EReal.coe_sub, Ideal.exp_coe, coe_sum, zero_add, Ideal.div_coe hD, Ideal.div_coe hS, ← EReal.coe_mul]
  rw [EReal.coe_eq_coe_iff]
  have := real_softmax_pool s (fun n => x n * p n) M
  simp only [← mul_assoc] at this ⊢
  exact this

/-- A maximum folded from −∞ over a nonempty finite family is one of the family's members; stated for any operation
    that is the maximum of the extended reals. -/
theorem exists_fold_eq {ι : Type*} (op : EReal → EReal → EReal) [Std.Commutative op] [Std.Associative op]
    (hop : ∀ a b, op a b = max a b) (t : Finset ι) (ht : t.Nonempty) (f : ι → EReal) :
    ∃ i ∈ t, t.fold op ⊥ f = f i := by
  obtain rfl : op = max := funext fun a => funext fun b => hop a b
  obtain ⟨i, hi, e⟩ := Finset.exists_mem_eq_sup t ht f
  exact ⟨i, hi, e⟩

end Cert.RefSoftmax

end
-- ==== Proof.RefValue.lean ====
/-
  The reference program's result is the common specification, entry by entry, at real inputs.

  The reference computes query = fuse · Wqᵀ, adds it (broadcast over the set axis) to conf · Wkᵀ, takes tanh, contracts
  with Wt to the scores, and evaluates a softmax over the set axis with the exponents shifted by the row's maximum:
  the weight of element n is e^{score n − M} / (0 + ∑ k, e^{score k − M}); the result sums weight · conf · prob over
  the set axis. Each operation is read at an index; the maximum M is only shown to be a real number (a maximum folded
  from −∞ over the 2048 real scores of the row is one of them), and at real scores, a real shift and real factors the
  shifted softmax-weighted sum is the shift-free quotient of the specification.
-/
import proofs.«151651_j81982335746424_2_alg».proof.Proof.Gen.ReferenceIdeal.Read
import proofs.«151651_j81982335746424_2_alg».proof.Proof.Spec
import proofs.«151651_j81982335746424_2_alg».proof.Proof.RefSoftmax
import Idealize.ShloMosaic.PureOps.Reduce
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open Cert.Spec

variable (x0 : (⟨S64x2048x512, .f32⟩ : BufTy).Contents (Elt Ideal)) (x1 : (⟨S64x1024, .f32⟩ : BufTy).Contents (Elt Ideal))
  (x2 : (⟨S64x2048x1, .f32⟩ : BufTy).Contents (Elt Ideal)) (x3 : (⟨S512x1024, .f32⟩ : BufTy).Contents (Elt Ideal))
  (x4 : (⟨S512x512, .f32⟩ : BufTy).Contents (Elt Ideal)) (x5 : (⟨S1x512, .f32⟩ : BufTy).Contents (Elt Ideal))

/-- The first product: entry (b, h) is query b h. -/
theorem v0_eq (b : Fin 64) (h : Fin 512) : val_main_v0 (F := Ideal) x1 x3 (ix2 b h) = query x1 x3 b h := by
  rw [val_main_v0_apply]
  refine Finset.sum_congr rfl fun f _ => ?_
  have el : lidx_main_v0 (ix2 b h) f = ix2 b f :=
    funext fun a => Fin.ext (by match a with | ⟨0, _⟩ => rfl | ⟨1, _⟩ => rfl)
  have er : ridx_main_v0 (ix2 b h) f = ix2 h f :=
    funext fun a => Fin.ext (by match a with | ⟨0, _⟩ => rfl | ⟨1, _⟩ => rfl)
  rw [el, er]

/-- The scores: entry (b, n, 0) of the third product is score b n. -/
theorem v6_eq (b : Fin 64) (n : Fin 2048) :
    val_main_v6 (F := Ideal) x0 x1 x3 x4 x5 (ix3 b n (0 : Fin 1)) = score x0 x1 x3 x4 x5 b n := by
  rw [val_main_v6_apply]
  refine Finset.sum_congr rfl fun h _ => ?_
  rw [val_main_v5_apply, val_main_v4_apply, val_main_v3_apply, val_main_v2_apply, val_main_v1_apply]
  have eq : idx_main_v2 (idx_main_v3 (lidx_main_v6 (ix3 b n (0 : Fin 1)) h)) = ix2 b h :=
    funext fun a => Fin.ext (by match a with | ⟨0, _⟩ => rfl | ⟨1, _⟩ => rfl)
  have el : ∀ c : Fin 512, lidx_main_v1 (lidx_main_v6 (ix3 b n (0 : Fin 1)) h) c = ix3 b n c := fun c =>
    funext fun a => Fin.ext (by match a with | ⟨0, _⟩ => rfl | ⟨1, _⟩ => rfl | ⟨2, _⟩ => rfl)
  have er : ∀ c : Fin 512, ridx_main_v1 (lidx_main_v6 (ix3 b n (0 : Fin 1)) h) c = ix2 h c := fun c =>
    funext fun a => Fin.ext (by match a with | ⟨0, _⟩ => rfl | ⟨1, _⟩ => rfl)
  have e5 : ridx_main_v6 (ix3 b n (0 : Fin 1)) h = ix2 (0 : Fin 1) h :=
    funext fun a => Fin.ext (by match a with | ⟨0, _⟩ => rfl | ⟨1, _⟩ => rfl)
  rw [eq, v0_eq, e5]
  simp only [el, er]
  rfl

/-- Every entry of the third product is a real number, at real inputs. -/
theorem v6_isReal (h0 : ∀ i, IsReal (x0 i)) (h1 : ∀ i, IsReal (x1 i)) (h3 : ∀ i, IsReal (x3 i)) (h4 : ∀ i, IsReal (x4 i))
    (h5 : ∀ i, IsReal (x5 i)) (l : S64x2048x1.Idx) : IsReal (val_main_v6 (F := Ideal) x0 x1 x3 x4 x5 l) := by
  obtain ⟨b, n, rfl⟩ : ∃ (b : Fin 64) (n : Fin 2048), l = ix3 b n (0 : Fin 1) :=
    ⟨l 0, l 1, funext fun a => Fin.ext (by
      match a with
      | ⟨0, _⟩ => rfl
      | ⟨1, _⟩ => rfl
      | ⟨2, _⟩ => exact Nat.lt_one_iff.1 (l 2).isLt)⟩
  rw [v6_eq]
  exact score_isReal h0 h1 h3 h4 h5 _ _

/-- The shift of the exponents: the maximum over the set axis, folded from −∞ and once more compared with −∞, is a
    real number, being one of the (real) scores. -/
theorem v9_isReal (h0 : ∀ i, IsReal (x0 i)) (h1 : ∀ i, IsReal (x1 i)) (h3 : ∀ i, IsReal (x3 i)) (h4 : ∀ i, IsReal (x4 i))
    (h5 : ∀ i, IsReal (x5 i)) (q : S64x1.Idx) : IsReal (val_main_v9 (F := Ideal) x0 x1 x3 x4 x5 q) := by
  have hbot : Ideal.ofBits .f32 0xFF800000#32 = ⊥ := by simp [Ideal.ofBits, Ideal.ieee]
  have hred : S64x2048x1.Reduces [1] S64x1 := by decide
  rw [val_main_v9_apply, val_main_v8_apply, val_main_cst_0_apply]
  unfold val_main_v7
  rw [Host.reduce_eq_fold_single FloatOps.maximumf _ _ reducesTo_S64x2048x1_S64x1_d1 hred h_S_ q, val_main_cst_apply,
    Ideal.ofBits_def, hbot]
  obtain ⟨k, -, e⟩ := Cert.RefSoftmax.exists_fold_eq (FloatOps.maximumf (F := Ideal) (φ := .f32)) (fun _ _ => rfl)
    (Finset.univ : Finset (Fin (S64x2048x1.size 1))) ⟨⟨0, by decide⟩, Finset.mem_univ _⟩
    (val_main_v6 (F := Ideal) x0 x1 x3 x4 x5 ∘ hred.lift q)
  rw [e, Ideal.maximumf_def, max_eq_right bot_le]
  exact v6_isReal x0 x1 x3 x4 x5 h0 h1 h3 h4 h5 _

/-- The shift for batch row b. -/
abbrev shift (b : Fin 64) : EReal := val_main_v9 (F := Ideal) x0 x1 x3 x4 x5 (ix2 b (0 : Fin 1))

/-- The shifted exponent at (b, n, 0). -/
theorem v12_eq (b : Fin 64) (n : Fin 2048) :
    val_main_v12 (F := Ideal) x0 x1 x3 x4 x5 (ix3 b n (0 : Fin 1)) = score x0 x1 x3 x4 x5 b n - shift x0 x1 x3 x4 x5 b := by
  rw [val_main_v12_apply, v6_eq, val_main_v11_apply, val_main_v10_apply]
  have eq : idx_main_v10 (idx_main_v11 (ix3 b n (0 : Fin 1))) = ix2 b (0 : Fin 1) :=
    funext fun a => Fin.ext (by match a with | ⟨0, _⟩ => rfl | ⟨1, _⟩ => rfl)
  rw [eq]
  rfl

/-- The unnormalized weight at (b, n, 0). -/
theorem v13_eq (b : Fin 64) (n : Fin 2048) :
    val_main_v13 (F := Ideal) x0 x1 x3 x4 x5 (ix3 b n (0 : Fin 1))
      = Ideal.exp (score x0 x1 x3 x4 x5 b n - shift x0 x1 x3 x4 x5 b) := by
  rw [val_main_v13_apply, v12_eq]
  rfl

/-- The normalizer of batch row b. -/
theorem v14_eq (b : Fin 64) :
    val_main_v14 (F := Ideal) x0 x1 x3 x4 x5 (ix2 b (0 : Fin 1))
      = 0 + ∑ k : Fin 2048, Ideal.exp (score x0 x1 x3 x4 x5 b k - shift x0 x1 x3 x4 x5 b) := by
  rw [val_main_v14_apply, val_main_cst_1_apply, Ideal.ofBits_def, Ideal.ofBits_zero_f32]
  refine congrArg (0 + ·) (Finset.sum_congr rfl fun k _ => ?_)
  have eq : idx_main_v14 (ix2 b (0 : Fin 1)) k = ix3 b k (0 : Fin 1) :=
    funext fun a => Fin.ext (by match a with | ⟨0, _⟩ => rfl | ⟨1, _⟩ => rfl | ⟨2, _⟩ => rfl)
  rw [eq, v13_eq]

/-- The softmax weight at (b, n, 0). -/
theorem v17_eq (b : Fin 64) (n : Fin 2048) :
    val_main_v17 (F := Ideal) x0 x1 x3 x4 x5 (ix3 b n (0 : Fin 1))
      = Ideal.div (Ideal.exp (score x0 x1 x3 x4 x5 b n - shift x0 x1 x3 x4 x5 b))
          (0 + ∑ k : Fin 2048, Ideal.exp (score x0 x1 x3 x4 x5 b k - shift x0 x1 x3 x4 x5 b)) := by
  rw [val_main_v17_apply, v13_eq, val_main_v16_apply, val_main_v15_apply]
  have eq : idx_main_v15 (idx_main_v16 (ix3 b n (0 : Fin 1))) = ix2 b (0 : Fin 1) :=
    funext fun a => Fin.ext (by match a with | ⟨0, _⟩ => rfl | ⟨1, _⟩ => rfl)
  rw [eq, v14_eq]
  rfl

/-- The weighted, masked entry at (b, n, c). -/
theorem v21_eq (b : Fin 64) (n : Fin 2048) (c : Fin 512) :
    val_main_v21 (F := Ideal) x0 x1 x2 x3 x4 x5 (ix3 b n c)
      = (Ideal.div (Ideal.exp (score x0 x1 x3 x4 x5 b n - shift x0 x1 x3 x4 x5 b))
          (0 + ∑ k : Fin 2048, Ideal.exp (score x0 x1 x3 x4 x5 b k - shift x0 x1 x3 x4 x5 b)) * x0 (ix3 b n c))
        * x2 (ix3 b n (0 : Fin 1)) := by
  rw [val_main_v21_apply, val_main_v19_apply, val_main_v18_apply, val_main_v20_apply]
  have e18 : idx_main_v18 (ix3 b n c) = ix3 b n (0 : Fin 1) :=
    funext fun a => Fin.ext (by match a with | ⟨0, _⟩ => rfl | ⟨1, _⟩ => rfl | ⟨2, _⟩ => rfl)
  have e20 : idx_main_v20 (ix3 b n c) = ix3 b n (0 : Fin 1) :=
    funext fun a => Fin.ext (by match a with | ⟨0, _⟩ => rfl | ⟨1, _⟩ => rfl | ⟨2, _⟩ => rfl)
  rw [e18, e20, v17_eq]
  rfl

/-- At real inputs the reference's result is the common specification, entry by entry. -/
theorem ref_eq_pooled (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v22 (F := Ideal) x0 x1 x2 x3 x4 x5 = fun i => pooled x0 x1 x2 x3 x4 x5 (i 0) (i 1) := by
  funext i
  obtain ⟨b, c, rfl⟩ : ∃ (b : Fin 64) (c : Fin 512), i = ix2 b c := ⟨i 0, i 1, eq_ix2 i⟩
  show _ = pooled x0 x1 x2 x3 x4 x5 b c
  rw [val_main_v22_apply, val_main_cst_2_apply, Ideal.ofBits_def, Ideal.ofBits_zero_f32]
  have eq : ∀ k : Fin 2048, idx_main_v22 (ix2 b c) k = ix3 b k c := fun k =>
    funext fun a => Fin.ext (by match a with | ⟨0, _⟩ => rfl | ⟨1, _⟩ => rfl | ⟨2, _⟩ => rfl)
  simp only [eq, v21_eq]
  choose s hs using fun n => score_isReal h0 h1 h3 h4 h5 b n
  obtain ⟨M, hM⟩ := v9_isReal x0 x1 x3 x4 x5 h0 h1 h3 h4 h5 (ix2 b (0 : Fin 1))
  choose xr hx using fun n => h0 (ix3 b n c)
  choose pr hp using fun n => h2 (ix3 b n (0 : Fin 1))
  unfold pooled
  simp only [hs, hM, hx, hp]
  exact Cert.RefSoftmax.softmax_pool s xr pr M

end Cert.RefValue

end
-- ==== Proof.RefFinite.lean ====
/-
  From the precondition "every float input is finite" to: every entry of every argument array is a real number.

  The precondition is the conjunction, over the six argument arrays, of "all entries x satisfy |x| < +∞", each
  conjunct an and-reduction of the entrywise comparisons over all axes. A conjunction that is 1 has every conjunct 1;
  an and-reduction that is 1 had 1 at every entry; and on the extended reals max x (−x) < +∞ excludes x = +∞ and
  x = −∞, which leaves the real numbers.
-/
import proofs.«151651_j81982335746424_2_alg».proof.Defs
import proofs.«151651_j81982335746424_2_alg».proof.Proof.Spec
import Idealize.ShloMosaic.Lib.ReduceAll
import Idealize.ShloMosaic.Lib.ValueIdx
import Idealize.ShloMosaic.Lib.Pipeline.Value

noncomputable section

namespace Cert.RefFinite

open Idealize.ShloMosaic Idealize.ShloMosaic.ValueIdx Idealize.SL.Sem Cert.Spec

/-- The shape of rank zero has one index. -/
instance : Subsingleton (⟨0, ![]⟩ : Shape).Idx := ⟨fun a b => funext fun d => d.elim0⟩

/-- On the extended reals, |x| < +∞ (as the comparison's result word) holds only at a real number. -/
theorem isReal_of_abs_lt_inf (x : EReal)
    (h : FloatOps.cmpf (F := Ideal) (φ := .f32) .olt (FloatOps.hostAbsf x) (FloatOps.ofBits .f32 0x7F800000#32) = 1#1) :
    IsReal x := by
  have ht : Ideal.ofBits .f32 0x7F800000#32 = ⊤ := by simp [Ideal.ofBits, Ideal.ieee]
  change BitVec.ofBool (decide (max x (-x) < Ideal.ofBits .f32 0x7F800000#32)) = 1#1 at h
  rw [ht] at h
  have hlt : max x (-x) < ⊤ := by
    by_contra hn
    rw [decide_eq_false hn] at h
    exact absurd h (by decide)
  induction x using EReal.rec with
  | bot => exact absurd hlt (by simp)
  | top => exact absurd hlt (by simp)
  | coe r => exact ⟨r, rfl⟩

/-- One conjunct of the precondition: if the and-reduction over all axes of the comparisons |x i| < +∞ is 1, every
    entry of x is a real number. -/
theorem all_real {s : Shape} {axes : List (Fin s.rank)} (x : s.Idx → EReal)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf (F := Ideal) .olt (Host.absf (F := Ideal) (φ := .f32) x)
            (broadcastInDim s ![] hb (constant (F := Ideal) ⟨0, ![]⟩ .f32 0x7F800000#32)))
          (constantI ⟨0, ![]⟩ 1 1#1) hr hu ix0 = 1#1) (i : s.Idx) : IsReal (x i) :=
  isReal_of_abs_lt_inf (x i) (Host.reduce_andi_all _ _ hr hu ix0 e i)

/-- Under the precondition every entry of every argument array of the idealized kernel's memory is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) := by
  have e := congrFun (h c) ix0
  dsimp only [Cert.Pre_finite_inputs.fn, Cert.Pre_finite_inputs.fn_part1, andi] at e
  obtain ⟨e4, e5⟩ := IntOp.andi_eq_one.1 e
  obtain ⟨e3', e4⟩ := IntOp.andi_eq_one.1 e4
  obtain ⟨e2', e3⟩ := IntOp.andi_eq_one.1 e3'
  obtain ⟨e1', e2⟩ := IntOp.andi_eq_one.1 e2'
  obtain ⟨e0, e1⟩ := IntOp.andi_eq_one.1 e1'
  exact ⟨all_real _ _ _ _ e0, all_real _ _ _ _ e1, all_real _ _ _ _ e2, all_real _ _ _ _ e3, all_real _ _ _ _ e4,
    all_real _ _ _ _ e5⟩

end Cert.RefFinite

end
-- ==== Proof.lean ====
/-
  Additive attention pooling: a streaming-softmax kernel against the one-pass reference, on the extended reals.

  Both programs form, for each batch row b and set element n, the score
      s n = ∑ h, tanh (∑ f, fuse[b,f] · Wq[h,f] + ∑ c, conf[b,n,c] · Wk[h,c]) · Wt[0,h]
  and return the softmax-weighted sum  ∑ n, softmax(s) n · conf[b,n,c] · prob[b,n,0].  The reference subtracts the row's
  maximum from every score before exponentiating and divides each weight by their sum. The kernel walks the set axis in
  two tiles with a running maximum (started at −1e30), a running denominator and a running weighted sum, rescaling what it
  has accumulated by e^{old maximum − new maximum} on each tile, and divides once at the end. For real scores a softmax
  quotient does not depend on the shift of its exponents, so both are
      (∑ n, e^{s n} · (conf[b,n,c] · prob[b,n,0])) / (∑ n, e^{s n}),
  the function `Cert.Spec.pooled`; the maxima enter only through being real numbers, and the finite-input precondition is
  what makes every score, and hence every maximum, real.  The changes of float format in the kernel are the identity here,
  and the idealization rewrote nothing, so the preservation conjunct is trivial.

  The three frames are the generated ones (the reference's is its generated run with the result dropped).
-/
import proofs.«151651_j81982335746424_2_alg».proof.Defs
import proofs.«151651_j81982335746424_2_alg».proof.Proof.Gen.Kernel
import proofs.«151651_j81982335746424_2_alg».proof.Proof.Gen.Kernel.Skeleton
import proofs.«151651_j81982335746424_2_alg».proof.Proof.Gen.Kernel.Launch
import proofs.«151651_j81982335746424_2_alg».proof.Proof.Gen.Kernel.Points
import proofs.«151651_j81982335746424_2_alg».proof.Proof.Gen.Kernel.Frame
import proofs.«151651_j81982335746424_2_alg».proof.Proof.Gen.KernelIdeal
import proofs.«151651_j81982335746424_2_alg».proof.Proof.Gen.KernelIdeal.Skeleton
import proofs.«151651_j81982335746424_2_alg».proof.Proof.Gen.KernelIdeal.Launch
import proofs.«151651_j81982335746424_2_alg».proof.Proof.Gen.KernelIdeal.Points
import proofs.«151651_j81982335746424_2_alg».proof.Proof.Gen.KernelIdeal.Frame
import proofs.«151651_j81982335746424_2_alg».proof.Proof.Gen.ReferenceIdeal
import proofs.«151651_j81982335746424_2_alg».proof.Proof.Gen.ReferenceIdeal.Run
import proofs.«151651_j81982335746424_2_alg».proof.Proof.Gen.ReferenceIdeal.Read
import proofs.«151651_j81982335746424_2_alg».proof.Proof.Gen.Pre_finite_inputs
import proofs.«151651_j81982335746424_2_alg».proof.Proof.KernelValue
import proofs.«151651_j81982335746424_2_alg».proof.Proof.RefValue
import proofs.«151651_j81982335746424_2_alg».proof.Proof.RefFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under finite inputs both programs end with the pooled values: the kernel's result array by its run read through the
    streaming identity, the reference's by its run read entry by entry, from memories that agree on the arguments. -/
theorem algebraic : Cert.algebraic_KernelIdeal_ReferenceIdeal := by
  intro m ρ m' ρ' hpre hagree
  have hr : ∀ c, Cert.KernelIdeal.KValue.AllReal m c := fun c => Cert.RefFinite.real_of_pre m hpre c
  refine ⟨fun c => Cert.KernelIdeal.KValue.result m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨r0, r1, r2, r3, r4, r5⟩ := hr c
  rw [a0, a1, a2, a3, a4, a5]
  exact (Cert.ReferenceIdeal.Read.val_main_v22_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).trans
    (Cert.RefValue.ref_eq_pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r0 r1 r2 r3 r4 r5)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
